-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024 .f32) (main_arg2 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S2x1024x1024 : Shape := ⟨3, ![2, 1024, 1024]⟩
abbrev S1x1024x1024 : Shape := ⟨3, ![1, 1024, 1024]⟩
abbrev S1024 : Shape := ⟨1, ![1024]⟩
abbrev S1024x1 : Shape := ⟨2, ![1024, 1]⟩
abbrev S_ : Shape := ⟨0, ![]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S_, .f32⟩
  | .hbm, ⟨5, _⟩ => ⟨S1024x1024, .f32⟩
  | .hbm, ⟨6, _⟩ => ⟨S1024x1024, .bf16⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem2_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reducesTo_S2x1024x1024_S1024x1024_d0 : S2x1024x1024.ReducesTo [0] S1024x1024
  h_S_ : 0 < S_.numel
  packedbf16_S1024x1024_S1024x1024_0_0 : (Rect.unit (s := S1024x1024) ![0, 0] S1024x1024.size inb_S1024x1024_S1024x1024_0_0).PackedRows (EltTy.packing .bf16)
  dot_S1024x1024_S1024x1024_S1024x1024_0_0_1_1_n_n_wf : DotDims.WF S1024x1024 S1024x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .f32 = 32 ∨ (Rect.block (s := S2x1024x1024) S1x1024x1024.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .f32 = 32 ∨ (Rect.block (s := S1024x1024) S1024x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .f32 = 32 ∨ (Rect.block (s := S8192x1024) S1024x1024.size (cc2_transform_2 i) (hinb2_2 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v1) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S1024x8192, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x1024 : S_.BroadcastsInDim S8192x1024 (![] : Fin 0 → Fin S8192x1024.rank)
  dot_S1024x8192_S8192x1024_S1024x1024_1_0_0_1_n_n_wf : DotDims.WF S1024x8192 S8192x1024 S1024x1024 [1] [0] [0] [1] [] []
  dot_S1024x1024_S1024x1024_S1024x1024_1_0_0_1_n_n_wf : DotDims.WF S1024x1024 S1024x1024 S1024x1024 [1] [0] [0] [1] [] []
  dot_S8192x1024_S1024x1024_S8192x1024_1_0_0_1_n_n_wf : DotDims.WF S8192x1024 S1024x1024 S8192x1024 [1] [0] [0] [1] [] []

variable [Facts₀]

def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.KGramRuns.lean ====
/- Region 0 (the Gram kernel's pipeline): what its three control cases share. The two branch conditions in closed
   form over the grid, where the output window is idle, the staging and scratch memrefs, and the region invariant
   split into the carried accumulator, the nine staging buffers of the two later regions, and the generator register. -/
import proofs.«135818_j22402549416655_2_alg».proof.Proof.Gen.Kernel.Launch
import proofs.«135818_j22402549416655_2_alg».proof.Proof.Gen.Kernel.Skeleton
import proofs.«135818_j22402549416655_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions -/

/-- The first conditional: grid coordinate 1 is zero (the accumulator is cleared). -/
abbrev cond0_0 (i : grid0.Coords) : Prop := (Scalar.cmpi .ne (Scalar.extui (Scalar.cmpi .eq (BitVec.ofNat 32 (i 1).val) 0#32)) 0#32) = 1#1
/-- It holds exactly at the points whose position is a multiple of four. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional: grid coordinate 1 is three (the accumulator is copied out). -/
abbrev cond0_1 (i : grid0.Coords) : Prop := k0_cond2 i = 1#1
/-- It holds exactly at the points whose position is three modulo four. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input window is never idle. -/
theorem liveAt0_0 : ∀ t : Fin cfg0.N, cfg0.idle 0 (grid0.coords t) = false := by decide +kernel
/-- Where the second conditional fails the output window is idle, -/
theorem idleAt0_1 : ∀ t : Fin cfg0.N, ¬cond0_1 (grid0.coords t) → cfg0.idle 1 (grid0.coords t) = true := by decide +kernel
/-- and its block is not written back there. -/
theorem noFlush0_1 : ∀ t : Fin cfg0.N, ¬cond0_1 (grid0.coords t) → (cfg0.win 1).flush t = false := by decide +kernel
/-- Where it holds the output window is live. -/
theorem liveAt0_1 : ∀ t : Fin cfg0.N, cond0_1 (grid0.coords t) → cfg0.idle 1 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
/-- The accumulator: a whole scoped buffer of the kernel's own, passed beside the windows. -/
abbrev scM0_0 : Memref sig .tc .vmem S1024x1024 .f32 := Memref.whole cc0_scratch0

/-! ## Whole-buffer loads and stores read back -/

/-- The whole-shape rectangle's zero offsets, as a function (rank 2, rank 3). -/
theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle, last, is what the buffer then reads, whatever came before. -/
theorem read_writes_cons_unit_zero {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The accumulator (or the input's buffer) after a last whole store reads the stored value. -/
theorem read_store2 (a : Memref sig .tc .vmem S1024x1024 .f32) (f : BufTy.Contents (Elt F) a.view.ty)
    (w : Vec F S1024x1024 .f32) (L : List (View.Piece (Elt F) S1024x1024 .f32)) :
    a.view.read (Elt F) (a.view.writes (Elt F) f (⟨Rect.unit ![0, 0] S1024x1024.size inb_S1024x1024_S1024x1024_0_0, w⟩ :: L)) = w :=
  read_writes_cons_unit_zero _ _ hz2 _ _ _

/-- The output's buffer after a last whole store reads the stored value. -/
theorem read_store3 (a : Memref sig .tc .vmem S1x1024x1024 .f32) (f : BufTy.Contents (Elt F) a.view.ty)
    (w : Vec F S1x1024x1024 .f32) (L : List (View.Piece (Elt F) S1x1024x1024 .f32)) :
    a.view.read (Elt F) (a.view.writes (Elt F) f (⟨Rect.unit ![0, 0, 0] S1x1024x1024.size inb_S1x1024x1024_S1x1024x1024_0_0_0, w⟩ :: L)) = w :=
  read_writes_cons_unit_zero _ _ hz3 _ _ _

/-- A whole load of a whole memref at contents `X` reads `X`. -/
theorem load_whole2 (a : Memref sig .tc .vmem S1024x1024 .f32) (ha : a.IsWhole) (X : Vec F S1024x1024 .f32) :
    View.readAt (Elt F) a.view (Rect.unit ![0, 0] S1024x1024.size inb_S1024x1024_S1024x1024_0_0).toLoadRect (ha.unread X) = X :=
  (View.readAt_eq_ld _ _ _).trans ((congrArg (fun Y => View.ld Y _) (ha.read_unread X)).trans (View.ld_unit_zero hz2 _ X))

/-- A whole load after one whole store reads the stored value. -/
theorem load_store2 (a : Memref sig .tc .vmem S1024x1024 .f32) (w : Vec F S1024x1024 .f32) :
    a.view.readCov [(⟨Rect.unit ![0, 0] S1024x1024.size inb_S1024x1024_S1024x1024_0_0, w⟩ : View.Piece (Elt F) S1024x1024 .f32)] (Rect.unit ![0, 0] S1024x1024.size inb_S1024x1024_S1024x1024_0_0).toLoadRect = w :=
  View.readCov_unit_zero _ hz2 _ _

/-! ## The region invariant, split -/

/-- Separating conjunction reassociates, as an equation between propositions. -/
theorem sep_assoc_eq {M : Type} [URA M] (A B C : sProp M) : (iprop((A ∗ B) ∗ C) : sProp M) = iprop(A ∗ B ∗ C) := by
  have h₁ : iprop((A ∗ B) ∗ C) ⊢ (iprop(A ∗ B ∗ C) : sProp M) := by
    iintro ⟨⟨HA, HB⟩, HC⟩
    isplitl [HA]; · iexact HA
    isplitl [HB]; · iexact HB
    iexact HC
  have h₂ : iprop(A ∗ B ∗ C) ⊢ (iprop((A ∗ B) ∗ C) : sProp M) := by
    iintro ⟨HA, HB, HC⟩
    isplitl [HA HB]
    · isplitl [HA]; · iexact HA
      iexact HB
    iexact HC
  exact BI.equiv_iff.mp ⟨h₁, h₂⟩

/-- The nine staging buffers of the two later regions, each whole at some contents: region 0 never touches them. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The class invariant is the accumulator at some contents, the nine other scoped buffers, and the generator register. -/
theorem PhiA0_eq (c : Dev nD) :
    (Pipeline.ΦA spec0 c : sProp 𝕄)
      = iprop((∃ d, owns (c : Thread nD τ) scM0_0 fullShare d) ∗ Rest0 (F := F) c ∗ (∃ r, prngReg c r)) := by
  unfold Pipeline.ΦA Rest0; rw [scopedRest0_eq]; simp only [scM0_0, owns_whole]
  exact sep_assoc_eq _ _ _

end Cert.Kernel.Hand

end
-- ==== Proof.KGramRunA.lean ====
/- Region 0, case A: the body's run at the points where the accumulator is cleared (grid coordinate 1 is zero). -/
import proofs.«135818_j22402549416655_2_alg».proof.Proof.KGramRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (first conditional taken, second not): on whole memrefs, the input at `x0`, the output at `xi1` (handed
    back untouched), the accumulator at anything, the body runs to the input and output as they were and the
    accumulator at the zero fill plus this block's product. -/
theorem kernelRun0_A (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1024x1024 .f32) (harg4 : arg4.IsWhole) (hc0 : cond0_0 i) (hc1 : ¬cond0_1 i)
    (x0 : Vec F S1024x1024 .f32) (xi1 : Vec F S1x1024x1024 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 x0 (k0_pay1 (F := F)))) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  refine (read_store2 _ _ _ _).trans ?_
  refine congrArg₂ (k0_pay2 (F := F)) (load_whole2 _ harg2 x0) ?_
  sl_unfold_run_names
  exact load_store2 _ _

end Cert.Kernel.Hand

end
-- ==== Proof.KGramRunB.lean ====
/- Region 0, case B: the body's run at the points where the accumulator is neither cleared nor copied out (grid coordinate 1 is one or two). -/
import proofs.«135818_j22402549416655_2_alg».proof.Proof.KGramRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (neither conditional taken): on whole memrefs, the input at `x0`, the output at `xi1` (handed back
    untouched), the accumulator at `xs0`, the body runs to the input and output as they were and the accumulator at
    `xs0` plus this block's product. -/
theorem kernelRun0_B (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1024x1024 .f32) (harg4 : arg4.IsWhole) (hc0 : ¬cond0_0 i) (hc1 : ¬cond0_1 i)
    (x0 : Vec F S1024x1024 .f32) (xi1 : Vec F S1x1024x1024 .f32) (xs0 : Vec F S1024x1024 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (k0_pay2 x0 xs0)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  refine (read_store2 _ _ _ _).trans ?_
  refine congrArg₂ (k0_pay2 (F := F)) (load_whole2 _ harg2 x0) ?_
  (try sl_unfold_run_names)
  exact load_whole2 _ harg4 xs0

end Cert.Kernel.Hand

end
-- ==== Proof.KGramRunC.lean ====
/- Region 0, case C: the body's run at the points where the accumulator is copied to the output block (grid coordinate 1 is three). -/
import proofs.«135818_j22402549416655_2_alg».proof.Proof.KGramRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (first conditional not taken, second taken): on whole memrefs, the input at `x0`, the output at anything,
    the accumulator at `xs0`, the body runs to the input as it was, the accumulator at `xs0` plus this block's
    product, and the output at that sum reshaped. -/
theorem kernelRun0_C (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1024x1024 .f32) (harg4 : arg4.IsWhole) (hc0 : ¬cond0_0 i) (hc1 : cond0_1 i)
    (x0 : Vec F S1024x1024 .f32) (xs0 : Vec F S1024x1024 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 x0 xs0)) ∗ owns (c : Thread nD τ) arg4 fullShare (k0_pay2 x0 xs0)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    refine (read_store3 _ _ _ _).trans ?_
    refine congrArg (k0_pay3 (F := F)) ?_
    (try sl_unfold_run_names)
    exact (load_store2 _ _).trans (congrArg₂ (k0_pay2 (F := F)) (load_whole2 _ harg2 x0) (load_whole2 _ harg4 xs0))
  iexists _; isplitr
  swap; · iexact HS0
  ipureintro
  refine (read_store2 _ _ _ _).trans ?_
  refine congrArg₂ (k0_pay2 (F := F)) (load_whole2 _ harg2 x0) ?_
  (try sl_unfold_run_names)
  exact load_whole2 _ harg4 xs0

end Cert.Kernel.Hand

end
-- ==== Proof.KGramBody.lean ====
/- Region 0 (the Gram kernel's pipeline), the body half at any entry contents: the accumulator's contents after each
   grid point as a recursion over the skeleton's payloads, the region invariant carrying it (with the nine staging
   buffers of the later regions and the generator register passed along untouched), the proof data, and the body
   obligation by cases on the point's position modulo four. -/
import proofs.«135818_j22402549416655_2_alg».proof.Proof.KGramRunA
import proofs.«135818_j22402549416655_2_alg».proof.Proof.KGramRunB
import proofs.«135818_j22402549416655_2_alg».proof.Proof.KGramRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The accumulator after each point -/

/-- What the accumulator holds after the body at position `n`: at a position that is a multiple of four, the zero
    fill plus that point's product; elsewhere what the point before left plus this point's product. -/
def acc0 (c : Dev nD) : (n : ℕ) → n < cfg0.N → Vec F S1024x1024 .f32
  | 0, hn => k0_pay2 (iblk0 V c 0 ⟨0, hn⟩) (k0_pay1 (F := F))
  | n + 1, hn =>
    if (n + 1) % 4 = 0 then k0_pay2 (iblk0 V c 0 ⟨n + 1, hn⟩) (k0_pay1 (F := F))
    else k0_pay2 (iblk0 V c 0 ⟨n + 1, hn⟩) (acc0 c n (Nat.lt_of_succ_lt hn))

/-- At a multiple of four the accumulator restarts from the zero fill. -/
theorem acc0_reset (c : Dev nD) (n : ℕ) (hn : n < cfg0.N) (h : n % 4 = 0) :
    acc0 V c n hn = k0_pay2 (iblk0 V c 0 ⟨n, hn⟩) (k0_pay1 (F := F)) := by
  cases n with
  | zero => rfl
  | succ n => exact if_pos h

/-- Elsewhere it adds this point's product to what the point before left. -/
theorem acc0_step (c : Dev nD) (n : ℕ) (hn : n + 1 < cfg0.N) (h : (n + 1) % 4 ≠ 0) :
    acc0 V c (n + 1) hn = k0_pay2 (iblk0 V c 0 ⟨n + 1, hn⟩) (acc0 V c n (Nat.lt_of_succ_lt hn)) :=
  if_neg h

/-- The same two equations at a point of the grid. -/
theorem acc0_at_reset (c : Dev nD) (t : Fin cfg0.N) (h : t.val % 4 = 0) :
    acc0 V c t.val t.isLt = k0_pay2 (iblk0 V c 0 t) (k0_pay1 (F := F)) :=
  acc0_reset V c t.val t.isLt h

theorem acc0_at_step (c : Dev nD) (t : Fin cfg0.N) (h : t.val % 4 ≠ 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd (Nat.zero_mod _) h
  | succ n => exact acc0_step V c n hn h

/-! ## The region invariant -/

/-- Before the first point the class invariant (every scoped buffer at anything); afterwards the accumulator at what
    the point before left, the other nine scoped buffers at anything, and the generator register at some state. -/
def PhiS (c : Dev nD) : (n : ℕ) → n ≤ cfg0.N → sProp 𝕄
  | 0, _ => Pipeline.ΦA spec0 c
  | n + 1, hn => iprop(owns (c : Thread nD τ) scM0_0 fullShare (acc0 V c n hn) ∗ Rest0 (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare (acc0 V c n hn) ∗ Rest0 (F := F) c ∗ (∃ r, prngReg c r)) := rfl

theorem PhiS_pos (c : Dev nD) (n : ℕ) (h : n ≤ cfg0.N) (hz : n ≠ 0) :
    PhiS V c n h = iprop(owns (c : Thread nD τ) scM0_0 fullShare (acc0 V c (n - 1) (by omega)) ∗ Rest0 (F := F) c ∗ (∃ r, prngReg c r)) := by
  cases n with
  | zero => exact absurd rfl hz
  | succ n => rfl

/-! ## The proof data -/

/-- The proof data of pipeline 0 on core `c`: the arrays as the region finds them; after the body the input's buffer
    at its block and the output's at the accumulator reshaped (read only where the window is live: the points three
    modulo four); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) (h : t.val % 4 = 3) :
    (dat0 V c).after 1 t = k0_pay3 (acc0 V c t.val t.isLt) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the position modulo four says which case the point is
    in; the invariant hands the body the accumulator (at anything at the first point, at what the point before left
    afterwards) and takes it back at this point's contents, the other scoped buffers and the generator register passing
    through untouched; where the output window is idle its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
      unfold Dat.leavesExact; rw [liveAt0_0 t], after0_0]
  by_cases h1 : t.val % 4 = 3
  · have h0 : ¬t.val % 4 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1 V c t h1]
    rw [acc0_at_step V c t h0]
    rw [PhiS_castSucc V c t, PhiS_pos V c _ _ hz]
    iintro ⟨⟨HS0, HR, Hg⟩, Ho, ⟨%d0, H0⟩, ⟨%d1, H1⟩⟩
    iapply (kernelRun0_C c (grid0.coords t) _ _ _ _ _ _ (fun h => h0 ((hcond0_0 t).mp h)) ((hcond0_1 t).mpr h1) (iblk0 V c 0 t) _ Set.univ _)
    isplitl [H0]; · iexact H0
    isplitl [H1]; · iexists _; iexact H1
    isplitl [HS0]; · iexact HS0
    iintro ⟨H0, H1, HS0⟩
    isplitl [HS0 HR Hg]
    · isplitl [HS0]; · iexact HS0
      isplitl [HR]; · iexact HR
      iexact Hg
    isplitl [Ho]; · iexact Ho
    isplitl [H0]; · iexact H0
    iexact H1
  · have hi := idleAt0_1 t (fun h => h1 ((hcond0_1 t).mp h))
    have hf := noFlush0_1 t (fun h => h1 ((hcond0_1 t).mp h))
    rw [Dat.leavesExact_idle (dat0 V c) 1 t hi hf]
    by_cases h0 : t.val % 4 = 0
    · rw [acc0_at_reset V c t h0]
      by_cases hz : t.val = 0
      · rw [PhiS_castSucc V c t, PhiS_zero V c _ _ hz, PhiA0_eq]
        iintro ⟨⟨HS0, HR, Hg⟩, Ho, ⟨%d0, H0⟩, ⟨%d1, H1⟩⟩
        iapply (kernelRun0_A c (grid0.coords t) _ _ _ _ _ _ ((hcond0_0 t).mpr h0) (fun h => h1 ((hcond0_1 t).mp h)) (iblk0 V c 0 t) _ Set.univ _)
        isplitl [H0]; · iexact H0
        isplitl [H1]; · iexact H1
        isplitl [HS0]; · iexact HS0
        iintro ⟨H0, H1, HS0⟩
        isplitl [HS0 HR Hg]
        · isplitl [HS0]; · iexact HS0
          isplitl [HR]; · iexact HR
          iexact Hg
        isplitl [Ho]; · iexact Ho
        isplitl [H0]; · iexact H0
        iexists _; iexact H1
      · rw [PhiS_castSucc V c t, PhiS_pos V c _ _ hz]
        iintro ⟨⟨HS0, HR, Hg⟩, Ho, ⟨%d0, H0⟩, ⟨%d1, H1⟩⟩
        iapply (kernelRun0_A c (grid0.coords t) _ _ _ _ _ _ ((hcond0_0 t).mpr h0) (fun h => h1 ((hcond0_1 t).mp h)) (iblk0 V c 0 t) _ Set.univ _)
        isplitl [H0]; · iexact H0
        isplitl [H1]; · iexact H1
        isplitl [HS0]; · iexists _; iexact HS0
        iintro ⟨H0, H1, HS0⟩
        isplitl [HS0 HR Hg]
        · isplitl [HS0]; · iexact HS0
          isplitl [HR]; · iexact HR
          iexact Hg
        isplitl [Ho]; · iexact Ho
        isplitl [H0]; · iexact H0
        iexists _; iexact H1
    · have hz : t.val ≠ 0 := by omega
      rw [acc0_at_step V c t h0]
      rw [PhiS_castSucc V c t, PhiS_pos V c _ _ hz]
      iintro ⟨⟨HS0, HR, Hg⟩, Ho, ⟨%d0, H0⟩, ⟨%d1, H1⟩⟩
      iapply (kernelRun0_B c (grid0.coords t) _ _ _ _ _ _ (fun h => h0 ((hcond0_0 t).mp h)) (fun h => h1 ((hcond0_1 t).mp h)) (iblk0 V c 0 t) _ _ Set.univ _)
      isplitl [H0]; · iexact H0
      isplitl [H1]; · iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, HR, Hg⟩
  isplitl [HS0]
  · iexists _; iexact HS0
  isplitl [HR]; · iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Region0

end Cert.Kernel.Hand

end
-- ==== Proof.KCoreBody.lean ====
/- The class-A half of REGION 1 (custom_call 1, `cc1__core_kernel`, pipeline 1) of the program `Cert.Kernel`, at a parameter `V`: the TensorCore's
   buffer contents when the region is entered. Each window's block at a point, the output's staging buffer after the
   body as the canonical contents of its one store, the body's triple over the skeleton, the pipeline's proof data and
   the body obligation, at any float instance. -/
import proofs.«135818_j22402549416655_2_alg».proof.Proof.Gen.Kernel.Launch
import proofs.«135818_j22402549416655_2_alg».proof.Proof.Gen.Kernel.Skeleton
import proofs.«135818_j22402549416655_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! # REGION 1 of @main: custom_call 1, `cc1__core_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x1024 := Rect.unit (s := S1024x1024) ![0, 0] S1024x1024.size inb_S1024x1024_S1024x1024_0_0

/-! ## What the body leaves in the output window's buffer -/

/-- Window 3's staging buffer after the body, from the input windows' blocks: its one store as a piece
    (`View.canon`; the payload is the skeleton's). -/
def out1_3 (x0 x1 x2 : Vec F S1024x1024 .f32) : Vec F S1024x1024 .bf16 :=
  View.canon [⟨r1_0, k1_pay1 (View.ld x0 r1_0) (View.ld x1 r1_0) (View.ld x2 r1_0)⟩]

/-- Its store tiles the buffer, so it covers it. -/
theorem cover1_3 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

/-! ## The body's triple -/

set_option maxHeartbeats 1000000 in
/-- The kernel body on whole staging memrefs, the inputs' at read contents `xW` and the output's at anything, runs to
    the continuation holding the inputs' as they were and the output's at `out1_3` of the inputs': the printed function
    is its skeleton, run operation by operation (the output's buffer is read once, unused, before it is stored). -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole)
    (x0 : Vec F S1024x1024 .f32) (x1 : Vec F S1024x1024 .f32) (x2 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__core_kernel i arg1 harg1 arg2 harg2 arg3 harg3 arg4 harg4) K := by
  simp only [cc1__core_kernel_eq_skeleton]; unfold cc1__core_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant the
    scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFinalBody.lean ====
/- The class-A half of REGION 2 (custom_call 2, `cc2__final_kernel`, pipeline 2) of the program `Cert.Kernel`, at a parameter `V`: the TensorCore's
   buffer contents when the region is entered. Each window's block at a point, the output's staging buffer after the
   body as the canonical contents of its one store, the body's triple over the skeleton, the pipeline's proof data and
   the body obligation, at any float instance. -/
import proofs.«135818_j22402549416655_2_alg».proof.Proof.Gen.Kernel.Launch
import proofs.«135818_j22402549416655_2_alg».proof.Proof.Gen.Kernel.Skeleton
import proofs.«135818_j22402549416655_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! # REGION 2 of @main: custom_call 2, `cc2__final_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x1024 := Rect.unit (s := S1024x1024) ![0, 0] S1024x1024.size inb_S1024x1024_S1024x1024_0_0

/-! ## What the body leaves in the output window's buffer -/

/-- Window 2's staging buffer after the body, from the input windows' blocks: its one store as a piece
    (`View.canon`; the payload is the skeleton's). A rectangle is of a shape alone, so the two inputs, of different
    element types, are read through the same one. -/
def out2_2 (x0 : Vec F S1024x1024 .f32) (x1 : Vec F S1024x1024 .bf16) : Vec F S1024x1024 .f32 :=
  View.canon [⟨r2_0, k2_pay1 (View.ld x0 r2_0) (View.ld x1 r2_0)⟩]

/-- Its store tiles the buffer, so it covers it. -/
theorem cover2_2 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `xW` and the output's at anything, runs to
    the continuation holding the inputs' as they were and the output's at `out2_2` of the inputs': the printed function
    is its skeleton, run operation by operation (the output's buffer is read once, unused, before it is stored). -/
theorem sound_kernel2 (c : Dev nD) (E : Set ℕ) (i : grid2.Coords) (arg1 : Memref sig .tc .vmem S1024x1024 .f32) (harg1 : arg1.IsWhole) (arg2 : Memref sig .tc .vmem S1024x1024 .bf16) (harg2 : arg2.IsWhole) (arg3 : Memref sig .tc .vmem S1024x1024 .f32) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__final_kernel i arg1 harg1 arg2 harg2 arg3 harg3) K := by
  simp only [cc2__final_kernel_eq_skeleton]; unfold cc2__final_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the whole program: its three grid kernels and the host reduction between the first two, chained
  from the launch to the return.

  The buffer contents are followed from boundary to boundary: at launch (`Wa`); after the first kernel, whose
  output array holds what its write-backs left (`Wb`); after the host's two operations (`Wc`); after the second
  kernel (`Wd`); after the third (`We`). Each kernel is entered with its windows' arrays split out of the
  unscoped buffers and left with them put back; the first kernel's invariant also carries its accumulator.
  The conclusion: every weakly fair execution terminates without a fault, and every unscoped buffer ends at
  `We`; the three argument arrays are read back through the chain to their launch contents.
-/
import proofs.«135818_j22402549416655_2_alg».proof.Proof.KGramBody
import proofs.«135818_j22402549416655_2_alg».proof.Proof.KCoreBody
import proofs.«135818_j22402549416655_2_alg».proof.Proof.KFinalBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first kernel's entry). -/
abbrev Wa : Dev nD → Valuation τ sig (Elt F) := fun c b => (s₀ m ρ).mem ((c : Dev nD), b)
/-- The same, read at the TensorCore's references. -/
abbrev Va : (c : Dev nD) → (b : Ref sig .tc) → Buf (Elt F) ((c : Thread nD τ).loc b) := fun c b => Wa m ρ c b

/-- After region 0: its windows' arrays at what the write-backs leave, every other buffer as the region found it. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
/-- The same, read at the TensorCore's references. -/
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the host's two operations (the second kernel's entry). -/
abbrev Wc : Dev nD → Valuation τ sig (Elt F) := fun c => StableHlo.after hostOps1 (Wb m ρ c)
abbrev Vc : (c : Dev nD) → (b : Ref sig .tc) → Buf (Elt F) ((c : Thread nD τ).loc b) := fun c b => Wc m ρ c b

/-- After region 1: its windows' arrays at what the write-backs leave, every other buffer as the region found it. -/
def Wd (c : Dev nD) : Valuation τ sig (Elt F) :=
  Pipeline.withArrays spec1 c (Wc m ρ c) fun w => (dat1 (Vc m ρ) c).arrAt w cfg1.N
theorem Wd_arr (c : Dev nD) (w : Fin cfg1.W) :
    Wd m ρ c (Proc.devRef .tc (Pipeline.arrRef spec1 w)) = (dat1 (Vc m ρ) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m ρ c (Proc.devRef .tc b) = Wc m ρ c (Proc.devRef .tc b) := by
  unfold Wd; exact Pipeline.withArrays_of_ne spec1 c _ _ b hb
/-- The same, read at the TensorCore's references. -/
abbrev Vd : (c : Dev nD) → (b : Ref sig .tc) → Buf (Elt F) ((c : Thread nD τ).loc b) := fun c b => Wd m ρ c b
theorem hF1 (c : Dev nD) (w : Fin cfg1.W) : (dat1 (Vc m ρ) c).arrAt w cfg1.N = Vd m ρ c (Pipeline.arrRef spec1 w) :=
  (Wd_arr m ρ c w).symm
theorem hrest1 (c : Dev nD) : ∀ b, b ∉ Finset.univ.image (Pipeline.arrRef spec1) → Vd m ρ c b = Vc m ρ c b :=
  fun b hb => Wd_of_ne m ρ c b fun w e => hb (Finset.mem_image.mpr ⟨w, Finset.mem_univ _, e⟩)

/-- After region 2: its windows' arrays at what the write-backs leave, every other buffer as the region found it. -/
def We (c : Dev nD) : Valuation τ sig (Elt F) :=
  Pipeline.withArrays spec2 c (Wd m ρ c) fun w => (dat2 (Vd m ρ) c).arrAt w cfg2.N
theorem We_arr (c : Dev nD) (w : Fin cfg2.W) :
    We m ρ c (Proc.devRef .tc (Pipeline.arrRef spec2 w)) = (dat2 (Vd m ρ) c).arrAt w cfg2.N := by
  unfold We; exact Pipeline.withArrays_arr spec2 launch2.win.arr_inj c _ _ w
theorem We_of_ne (c : Dev nD) (b : Ref sig .tc) (hb : ∀ w, Pipeline.arrRef spec2 w ≠ b) :
    We m ρ c (Proc.devRef .tc b) = Wd m ρ c (Proc.devRef .tc b) := by
  unfold We; exact Pipeline.withArrays_of_ne spec2 c _ _ b hb
/-- The same, read at the TensorCore's references. -/
abbrev Ve : (c : Dev nD) → (b : Ref sig .tc) → Buf (Elt F) ((c : Thread nD τ).loc b) := fun c b => We m ρ c b
theorem hF2 (c : Dev nD) (w : Fin cfg2.W) : (dat2 (Vd m ρ) c).arrAt w cfg2.N = Ve m ρ c (Pipeline.arrRef spec2 w) :=
  (We_arr m ρ c w).symm
theorem hrest2 (c : Dev nD) : ∀ b, b ∉ Finset.univ.image (Pipeline.arrRef spec2) → Ve m ρ c b = Vd m ρ c b :=
  fun b hb => We_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vc m ρ) c
  | ⟨2, _⟩ => fun c => dat2 (Vd m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps1_noFresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (We m ρ c) ∗ ∃ r, prngReg c r)

/-! ## The regions as segments -/

set_option backward.isDefEq.respectTransparency.types false in
/-- Region 0 over the thread state: entered with every unscoped buffer at `Wa`, left with them at `Wb`.
    Its windows' arrays are split out of the unscoped buffers and put back at what the write-backs leave; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (show (Pipeline.ΦA spec0 c : sProp 𝕄) ⊢ (pdats m ρ 0 c).Φ 0 from hin0 (Va m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (Va m ρ) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wc`, left with them at `Wd`.
    Its windows' arrays are split out of the unscoped buffers and put back at what the write-backs leave; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m ρ) c).loose
  hwaits := Pipeline.hwaits_of_owed_zero _ _ _ _ L lv 1 fun _ _ => rfl
  pre c := iprop(StableHlo.held (c : Thread nD τ) (Pipeline.ucRefs τ sig) (Wc m ρ c) ∗ R c)
  post c := iprop(StableHlo.held (c : Thread nD τ) (Pipeline.ucRefs τ sig) (Wd m ρ c) ∗ R c)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vc m ρ c) (Vd m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wd`, left with them at `We`.
    Its windows' arrays are split out of the unscoped buffers and put back at what the write-backs leave; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vd m ρ) c).loose
  hwaits := Pipeline.hwaits_of_owed_zero _ _ _ _ L lv 2 fun _ _ => rfl
  pre c := iprop(StableHlo.held (c : Thread nD τ) (Pipeline.ucRefs τ sig) (Wd m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vd m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vd m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vd m ρ c) (Ve m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_noFresh (Wb m ρ)),
    .region (reg1 m ρ),
    .region (reg2 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and
    every unscoped buffer ends at the last boundary's contents `We`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c => h c)

end Cert.Kernel.Hand

end
-- ==== Proof.KArgs.lean ====
/-
  The three argument arrays through the chain of buffer contents: no kernel writes an argument (each reads it
  through an input window, or does not touch it) and neither host operation does, so each boundary's contents at
  an argument's buffer walk back to the launch memory. With the run of the whole program this is the frame claim.
-/
import proofs.«135818_j22402549416655_2_alg».proof.Proof.KRun

set_option maxRecDepth 16384

noncomputable section

namespace Cert.Kernel.Hand

open Idealize.ShloMosaic Idealize.ShloMosaic.TcCoe Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg)

/-- Neither host operation writes `b` when `b` is neither the zero constant's buffer nor the sum's. -/
theorem Wc_of_ne (c : Dev nD) (b : Ref sig .tc) (h0 : b ≠ main_cst) (h1 : b ≠ main_v1) :
    Wc m ρ c (Proc.devRef .tc b) = Wb m ρ c (Proc.devRef .tc b) :=
  StableHlo.after_of_forall_not_mem (b := Proc.devRef .tc b) _ _ (List.forall_iff_forall_mem.mp (by
    simp only [hostOps1, List.Forall, StableHlo.nullary_writes, StableHlo.binary_writes, Finset.mem_singleton]
    exact ⟨StableHlo.devRef_ne_of_ne h0, StableHlo.devRef_ne_of_ne h1⟩))

/-! ## After the first kernel -/

theorem Wb_main_arg0 (c : Dev nD) : Wb m ρ c (Proc.devRef .tc main_arg0) = m ((c : Thread nD τ).loc main_arg0) :=
  (Wb_arr m ρ c 0).trans (((dat0 (Va m ρ) c).arrAt_in 0 rfl _).trans (A_eq0 (Va m ρ) c 0))
theorem Wb_main_arg1 (c : Dev nD) : Wb m ρ c (Proc.devRef .tc main_arg1) = m ((c : Thread nD τ).loc main_arg1) :=
  Wb_of_ne m ρ c main_arg1 (by decide)
theorem Wb_main_arg2 (c : Dev nD) : Wb m ρ c (Proc.devRef .tc main_arg2) = m ((c : Thread nD τ).loc main_arg2) :=
  Wb_of_ne m ρ c main_arg2 (by decide)

/-! ## After the host's sum -/

theorem Wc_main_arg0 (c : Dev nD) : Wc m ρ c (Proc.devRef .tc main_arg0) = m ((c : Thread nD τ).loc main_arg0) :=
  (Wc_of_ne m ρ c main_arg0 (by decide) (by decide)).trans (Wb_main_arg0 m ρ c)
theorem Wc_main_arg1 (c : Dev nD) : Wc m ρ c (Proc.devRef .tc main_arg1) = m ((c : Thread nD τ).loc main_arg1) :=
  (Wc_of_ne m ρ c main_arg1 (by decide) (by decide)).trans (Wb_main_arg1 m ρ c)
theorem Wc_main_arg2 (c : Dev nD) : Wc m ρ c (Proc.devRef .tc main_arg2) = m ((c : Thread nD τ).loc main_arg2) :=
  (Wc_of_ne m ρ c main_arg2 (by decide) (by decide)).trans (Wb_main_arg2 m ρ c)

/-! ## After the second kernel -/

theorem Wd_main_arg0 (c : Dev nD) : Wd m ρ c (Proc.devRef .tc main_arg0) = m ((c : Thread nD τ).loc main_arg0) :=
  (Wd_of_ne m ρ c main_arg0 (by decide)).trans (Wc_main_arg0 m ρ c)
theorem Wd_main_arg1 (c : Dev nD) : Wd m ρ c (Proc.devRef .tc main_arg1) = m ((c : Thread nD τ).loc main_arg1) :=
  (Wd_arr m ρ c 1).trans (((dat1 (Vc m ρ) c).arrAt_in 1 rfl _).trans ((A_eq1 (Vc m ρ) c 1).trans (Wc_main_arg1 m ρ c)))
theorem Wd_main_arg2 (c : Dev nD) : Wd m ρ c (Proc.devRef .tc main_arg2) = m ((c : Thread nD τ).loc main_arg2) :=
  (Wd_arr m ρ c 2).trans (((dat1 (Vc m ρ) c).arrAt_in 2 rfl _).trans ((A_eq1 (Vc m ρ) c 2).trans (Wc_main_arg2 m ρ c)))

/-! ## After the third kernel -/

theorem We_main_arg0 (c : Dev nD) : We m ρ c (Proc.devRef .tc main_arg0) = m ((c : Thread nD τ).loc main_arg0) :=
  (We_arr m ρ c 0).trans (((dat2 (Vd m ρ) c).arrAt_in 0 rfl _).trans ((A_eq2 (Vd m ρ) c 0).trans (Wd_main_arg0 m ρ c)))
theorem We_main_arg1 (c : Dev nD) : We m ρ c (Proc.devRef .tc main_arg1) = m ((c : Thread nD τ).loc main_arg1) :=
  (We_of_ne m ρ c main_arg1 (by decide)).trans (Wd_main_arg1 m ρ c)
theorem We_main_arg2 (c : Dev nD) : We m ρ c (Proc.devRef .tc main_arg2) = m ((c : Thread nD τ).loc main_arg2) :=
  (We_of_ne m ρ c main_arg2 (by decide)).trans (Wd_main_arg2 m ρ c)

/-- THE FRAME, at any float instance: the program terminates without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (We_main_arg0 m ρ c),
     (h c _ (mem_uc main_arg1 (by decide))).trans (We_main_arg1 m ρ c),
     (h c _ (mem_uc main_arg2 (by decide))).trans (We_main_arg2 m ρ c)⟩) (run_all m ρ)

end Cert.Kernel.Hand

end
-- ==== Proof.GramRuns.lean ====
/- Region 0 (the Gram kernel's pipeline): what its three control cases share. The two branch conditions in closed
   form over the grid, where the output window is idle, the staging and scratch memrefs, and the region invariant
   split into the carried accumulator, the nine staging buffers of the two later regions, and the generator register. -/
import proofs.«135818_j22402549416655_2_alg».proof.Proof.Gen.KernelIdeal.Launch
import proofs.«135818_j22402549416655_2_alg».proof.Proof.Gen.KernelIdeal.Skeleton
import proofs.«135818_j22402549416655_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions -/

/-- The first conditional: grid coordinate 1 is zero (the accumulator is cleared). -/
abbrev cond0_0 (i : grid0.Coords) : Prop := (Scalar.cmpi .ne (Scalar.extui (Scalar.cmpi .eq (BitVec.ofNat 32 (i 1).val) 0#32)) 0#32) = 1#1
/-- It holds exactly at the points whose position is a multiple of four. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional: grid coordinate 1 is three (the accumulator is copied out). -/
abbrev cond0_1 (i : grid0.Coords) : Prop := k0_cond2 i = 1#1
/-- It holds exactly at the points whose position is three modulo four. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input window is never idle. -/
theorem liveAt0_0 : ∀ t : Fin cfg0.N, cfg0.idle 0 (grid0.coords t) = false := by decide +kernel
/-- Where the second conditional fails the output window is idle, -/
theorem idleAt0_1 : ∀ t : Fin cfg0.N, ¬cond0_1 (grid0.coords t) → cfg0.idle 1 (grid0.coords t) = true := by decide +kernel
/-- and its block is not written back there. -/
theorem noFlush0_1 : ∀ t : Fin cfg0.N, ¬cond0_1 (grid0.coords t) → (cfg0.win 1).flush t = false := by decide +kernel
/-- Where it holds the output window is live. -/
theorem liveAt0_1 : ∀ t : Fin cfg0.N, cond0_1 (grid0.coords t) → cfg0.idle 1 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
/-- The accumulator: a whole scoped buffer of the kernel's own, passed beside the windows. -/
abbrev scM0_0 : Memref sig .tc .vmem S1024x1024 .f32 := Memref.whole cc0_scratch0

/-! ## Whole-buffer loads and stores read back -/

/-- The whole-shape rectangle's zero offsets, as a function (rank 2, rank 3). -/
theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle, last, is what the buffer then reads, whatever came before. -/
theorem read_writes_cons_unit_zero {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The accumulator (or the input's buffer) after a last whole store reads the stored value. -/
theorem read_store2 (a : Memref sig .tc .vmem S1024x1024 .f32) (f : BufTy.Contents (Elt F) a.view.ty)
    (w : Vec F S1024x1024 .f32) (L : List (View.Piece (Elt F) S1024x1024 .f32)) :
    a.view.read (Elt F) (a.view.writes (Elt F) f (⟨Rect.unit ![0, 0] S1024x1024.size inb_S1024x1024_S1024x1024_0_0, w⟩ :: L)) = w :=
  read_writes_cons_unit_zero _ _ hz2 _ _ _

/-- The output's buffer after a last whole store reads the stored value. -/
theorem read_store3 (a : Memref sig .tc .vmem S1x1024x1024 .f32) (f : BufTy.Contents (Elt F) a.view.ty)
    (w : Vec F S1x1024x1024 .f32) (L : List (View.Piece (Elt F) S1x1024x1024 .f32)) :
    a.view.read (Elt F) (a.view.writes (Elt F) f (⟨Rect.unit ![0, 0, 0] S1x1024x1024.size inb_S1x1024x1024_S1x1024x1024_0_0_0, w⟩ :: L)) = w :=
  read_writes_cons_unit_zero _ _ hz3 _ _ _

/-- A whole load of a whole memref at contents `X` reads `X`. -/
theorem load_whole2 (a : Memref sig .tc .vmem S1024x1024 .f32) (ha : a.IsWhole) (X : Vec F S1024x1024 .f32) :
    View.readAt (Elt F) a.view (Rect.unit ![0, 0] S1024x1024.size inb_S1024x1024_S1024x1024_0_0).toLoadRect (ha.unread X) = X :=
  (View.readAt_eq_ld _ _ _).trans ((congrArg (fun Y => View.ld Y _) (ha.read_unread X)).trans (View.ld_unit_zero hz2 _ X))

/-- A whole load after one whole store reads the stored value. -/
theorem load_store2 (a : Memref sig .tc .vmem S1024x1024 .f32) (w : Vec F S1024x1024 .f32) :
    a.view.readCov [(⟨Rect.unit ![0, 0] S1024x1024.size inb_S1024x1024_S1024x1024_0_0, w⟩ : View.Piece (Elt F) S1024x1024 .f32)] (Rect.unit ![0, 0] S1024x1024.size inb_S1024x1024_S1024x1024_0_0).toLoadRect = w :=
  View.readCov_unit_zero _ hz2 _ _

/-! ## The region invariant, split -/

/-- Separating conjunction reassociates, as an equation between propositions. -/
theorem sep_assoc_eq {M : Type} [URA M] (A B C : sProp M) : (iprop((A ∗ B) ∗ C) : sProp M) = iprop(A ∗ B ∗ C) := by
  have h₁ : iprop((A ∗ B) ∗ C) ⊢ (iprop(A ∗ B ∗ C) : sProp M) := by
    iintro ⟨⟨HA, HB⟩, HC⟩
    isplitl [HA]; · iexact HA
    isplitl [HB]; · iexact HB
    iexact HC
  have h₂ : iprop(A ∗ B ∗ C) ⊢ (iprop((A ∗ B) ∗ C) : sProp M) := by
    iintro ⟨HA, HB, HC⟩
    isplitl [HA HB]
    · isplitl [HA]; · iexact HA
      iexact HB
    iexact HC
  exact BI.equiv_iff.mp ⟨h₁, h₂⟩

/-- The nine staging buffers of the two later regions, each whole at some contents: region 0 never touches them. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The class invariant is the accumulator at some contents, the nine other scoped buffers, and the generator register. -/
theorem PhiA0_eq (c : Dev nD) :
    (Pipeline.ΦA spec0 c : sProp 𝕄)
      = iprop((∃ d, owns (c : Thread nD τ) scM0_0 fullShare d) ∗ Rest0 (F := F) c ∗ (∃ r, prngReg c r)) := by
  unfold Pipeline.ΦA Rest0; rw [scopedRest0_eq]; simp only [scM0_0, owns_whole]
  exact sep_assoc_eq _ _ _

end Cert.KernelIdeal.Hand

end
-- ==== Proof.GramRunA.lean ====
/- Region 0, case A: the body's run at the points where the accumulator is cleared (grid coordinate 1 is zero). -/
import proofs.«135818_j22402549416655_2_alg».proof.Proof.GramRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (first conditional taken, second not): on whole memrefs, the input at `x0`, the output at `xi1` (handed
    back untouched), the accumulator at anything, the body runs to the input and output as they were and the
    accumulator at the zero fill plus this block's product. -/
theorem kernelRun0_A (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1024x1024 .f32) (harg4 : arg4.IsWhole) (hc0 : cond0_0 i) (hc1 : ¬cond0_1 i)
    (x0 : Vec F S1024x1024 .f32) (xi1 : Vec F S1x1024x1024 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 x0 (k0_pay1 (F := F)))) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  refine (read_store2 _ _ _ _).trans ?_
  refine congrArg₂ (k0_pay2 (F := F)) (load_whole2 _ harg2 x0) ?_
  sl_unfold_run_names
  exact load_store2 _ _

end Cert.KernelIdeal.Hand

end
-- ==== Proof.GramRunB.lean ====
/- Region 0, case B: the body's run at the points where the accumulator is neither cleared nor copied out (grid coordinate 1 is one or two). -/
import proofs.«135818_j22402549416655_2_alg».proof.Proof.GramRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (neither conditional taken): on whole memrefs, the input at `x0`, the output at `xi1` (handed back
    untouched), the accumulator at `xs0`, the body runs to the input and output as they were and the accumulator at
    `xs0` plus this block's product. -/
theorem kernelRun0_B (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1024x1024 .f32) (harg4 : arg4.IsWhole) (hc0 : ¬cond0_0 i) (hc1 : ¬cond0_1 i)
    (x0 : Vec F S1024x1024 .f32) (xi1 : Vec F S1x1024x1024 .f32) (xs0 : Vec F S1024x1024 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (k0_pay2 x0 xs0)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  refine (read_store2 _ _ _ _).trans ?_
  refine congrArg₂ (k0_pay2 (F := F)) (load_whole2 _ harg2 x0) ?_
  (try sl_unfold_run_names)
  exact load_whole2 _ harg4 xs0

end Cert.KernelIdeal.Hand

end
-- ==== Proof.GramRunC.lean ====
/- Region 0, case C: the body's run at the points where the accumulator is copied to the output block (grid coordinate 1 is three). -/
import proofs.«135818_j22402549416655_2_alg».proof.Proof.GramRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (first conditional not taken, second taken): on whole memrefs, the input at `x0`, the output at anything,
    the accumulator at `xs0`, the body runs to the input as it was, the accumulator at `xs0` plus this block's
    product, and the output at that sum reshaped. -/
theorem kernelRun0_C (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1024x1024 .f32) (harg4 : arg4.IsWhole) (hc0 : ¬cond0_0 i) (hc1 : cond0_1 i)
    (x0 : Vec F S1024x1024 .f32) (xs0 : Vec F S1024x1024 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 x0 xs0)) ∗ owns (c : Thread nD τ) arg4 fullShare (k0_pay2 x0 xs0)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    refine (read_store3 _ _ _ _).trans ?_
    refine congrArg (k0_pay3 (F := F)) ?_
    (try sl_unfold_run_names)
    exact (load_store2 _ _).trans (congrArg₂ (k0_pay2 (F := F)) (load_whole2 _ harg2 x0) (load_whole2 _ harg4 xs0))
  iexists _; isplitr
  swap; · iexact HS0
  ipureintro
  refine (read_store2 _ _ _ _).trans ?_
  refine congrArg₂ (k0_pay2 (F := F)) (load_whole2 _ harg2 x0) ?_
  (try sl_unfold_run_names)
  exact load_whole2 _ harg4 xs0

end Cert.KernelIdeal.Hand

end
-- ==== Proof.GramBody.lean ====
/- Region 0 (the Gram kernel's pipeline), the body half at any entry contents: the accumulator's contents after each
   grid point as a recursion over the skeleton's payloads, the region invariant carrying it (with the nine staging
   buffers of the later regions and the generator register passed along untouched), the proof data, and the body
   obligation by cases on the point's position modulo four. -/
import proofs.«135818_j22402549416655_2_alg».proof.Proof.GramRunA
import proofs.«135818_j22402549416655_2_alg».proof.Proof.GramRunB
import proofs.«135818_j22402549416655_2_alg».proof.Proof.GramRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The accumulator after each point -/

/-- What the accumulator holds after the body at position `n`: at a position that is a multiple of four, the zero
    fill plus that point's product; elsewhere what the point before left plus this point's product. -/
def acc0 (c : Dev nD) : (n : ℕ) → n < cfg0.N → Vec F S1024x1024 .f32
  | 0, hn => k0_pay2 (iblk0 V c 0 ⟨0, hn⟩) (k0_pay1 (F := F))
  | n + 1, hn =>
    if (n + 1) % 4 = 0 then k0_pay2 (iblk0 V c 0 ⟨n + 1, hn⟩) (k0_pay1 (F := F))
    else k0_pay2 (iblk0 V c 0 ⟨n + 1, hn⟩) (acc0 c n (Nat.lt_of_succ_lt hn))

/-- At a multiple of four the accumulator restarts from the zero fill. -/
theorem acc0_reset (c : Dev nD) (n : ℕ) (hn : n < cfg0.N) (h : n % 4 = 0) :
    acc0 V c n hn = k0_pay2 (iblk0 V c 0 ⟨n, hn⟩) (k0_pay1 (F := F)) := by
  cases n with
  | zero => rfl
  | succ n => exact if_pos h

/-- Elsewhere it adds this point's product to what the point before left. -/
theorem acc0_step (c : Dev nD) (n : ℕ) (hn : n + 1 < cfg0.N) (h : (n + 1) % 4 ≠ 0) :
    acc0 V c (n + 1) hn = k0_pay2 (iblk0 V c 0 ⟨n + 1, hn⟩) (acc0 V c n (Nat.lt_of_succ_lt hn)) :=
  if_neg h

/-- The same two equations at a point of the grid. -/
theorem acc0_at_reset (c : Dev nD) (t : Fin cfg0.N) (h : t.val % 4 = 0) :
    acc0 V c t.val t.isLt = k0_pay2 (iblk0 V c 0 t) (k0_pay1 (F := F)) :=
  acc0_reset V c t.val t.isLt h

theorem acc0_at_step (c : Dev nD) (t : Fin cfg0.N) (h : t.val % 4 ≠ 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd (Nat.zero_mod _) h
  | succ n => exact acc0_step V c n hn h

/-! ## The region invariant -/

/-- Before the first point the class invariant (every scoped buffer at anything); afterwards the accumulator at what
    the point before left, the other nine scoped buffers at anything, and the generator register at some state. -/
def PhiS (c : Dev nD) : (n : ℕ) → n ≤ cfg0.N → sProp 𝕄
  | 0, _ => Pipeline.ΦA spec0 c
  | n + 1, hn => iprop(owns (c : Thread nD τ) scM0_0 fullShare (acc0 V c n hn) ∗ Rest0 (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare (acc0 V c n hn) ∗ Rest0 (F := F) c ∗ (∃ r, prngReg c r)) := rfl

theorem PhiS_pos (c : Dev nD) (n : ℕ) (h : n ≤ cfg0.N) (hz : n ≠ 0) :
    PhiS V c n h = iprop(owns (c : Thread nD τ) scM0_0 fullShare (acc0 V c (n - 1) (by omega)) ∗ Rest0 (F := F) c ∗ (∃ r, prngReg c r)) := by
  cases n with
  | zero => exact absurd rfl hz
  | succ n => rfl

/-! ## The proof data -/

/-- The proof data of pipeline 0 on core `c`: the arrays as the region finds them; after the body the input's buffer
    at its block and the output's at the accumulator reshaped (read only where the window is live: the points three
    modulo four); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) (h : t.val % 4 = 3) :
    (dat0 V c).after 1 t = k0_pay3 (acc0 V c t.val t.isLt) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the position modulo four says which case the point is
    in; the invariant hands the body the accumulator (at anything at the first point, at what the point before left
    afterwards) and takes it back at this point's contents, the other scoped buffers and the generator register passing
    through untouched; where the output window is idle its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
      unfold Dat.leavesExact; rw [liveAt0_0 t], after0_0]
  by_cases h1 : t.val % 4 = 3
  · have h0 : ¬t.val % 4 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1 V c t h1]
    rw [acc0_at_step V c t h0]
    rw [PhiS_castSucc V c t, PhiS_pos V c _ _ hz]
    iintro ⟨⟨HS0, HR, Hg⟩, Ho, ⟨%d0, H0⟩, ⟨%d1, H1⟩⟩
    iapply (kernelRun0_C c (grid0.coords t) _ _ _ _ _ _ (fun h => h0 ((hcond0_0 t).mp h)) ((hcond0_1 t).mpr h1) (iblk0 V c 0 t) _ Set.univ _)
    isplitl [H0]; · iexact H0
    isplitl [H1]; · iexists _; iexact H1
    isplitl [HS0]; · iexact HS0
    iintro ⟨H0, H1, HS0⟩
    isplitl [HS0 HR Hg]
    · isplitl [HS0]; · iexact HS0
      isplitl [HR]; · iexact HR
      iexact Hg
    isplitl [Ho]; · iexact Ho
    isplitl [H0]; · iexact H0
    iexact H1
  · have hi := idleAt0_1 t (fun h => h1 ((hcond0_1 t).mp h))
    have hf := noFlush0_1 t (fun h => h1 ((hcond0_1 t).mp h))
    rw [Dat.leavesExact_idle (dat0 V c) 1 t hi hf]
    by_cases h0 : t.val % 4 = 0
    · rw [acc0_at_reset V c t h0]
      by_cases hz : t.val = 0
      · rw [PhiS_castSucc V c t, PhiS_zero V c _ _ hz, PhiA0_eq]
        iintro ⟨⟨HS0, HR, Hg⟩, Ho, ⟨%d0, H0⟩, ⟨%d1, H1⟩⟩
        iapply (kernelRun0_A c (grid0.coords t) _ _ _ _ _ _ ((hcond0_0 t).mpr h0) (fun h => h1 ((hcond0_1 t).mp h)) (iblk0 V c 0 t) _ Set.univ _)
        isplitl [H0]; · iexact H0
        isplitl [H1]; · iexact H1
        isplitl [HS0]; · iexact HS0
        iintro ⟨H0, H1, HS0⟩
        isplitl [HS0 HR Hg]
        · isplitl [HS0]; · iexact HS0
          isplitl [HR]; · iexact HR
          iexact Hg
        isplitl [Ho]; · iexact Ho
        isplitl [H0]; · iexact H0
        iexists _; iexact H1
      · rw [PhiS_castSucc V c t, PhiS_pos V c _ _ hz]
        iintro ⟨⟨HS0, HR, Hg⟩, Ho, ⟨%d0, H0⟩, ⟨%d1, H1⟩⟩
        iapply (kernelRun0_A c (grid0.coords t) _ _ _ _ _ _ ((hcond0_0 t).mpr h0) (fun h => h1 ((hcond0_1 t).mp h)) (iblk0 V c 0 t) _ Set.univ _)
        isplitl [H0]; · iexact H0
        isplitl [H1]; · iexact H1
        isplitl [HS0]; · iexists _; iexact HS0
        iintro ⟨H0, H1, HS0⟩
        isplitl [HS0 HR Hg]
        · isplitl [HS0]; · iexact HS0
          isplitl [HR]; · iexact HR
          iexact Hg
        isplitl [Ho]; · iexact Ho
        isplitl [H0]; · iexact H0
        iexists _; iexact H1
    · have hz : t.val ≠ 0 := by omega
      rw [acc0_at_step V c t h0]
      rw [PhiS_castSucc V c t, PhiS_pos V c _ _ hz]
      iintro ⟨⟨HS0, HR, Hg⟩, Ho, ⟨%d0, H0⟩, ⟨%d1, H1⟩⟩
      iapply (kernelRun0_B c (grid0.coords t) _ _ _ _ _ _ (fun h => h0 ((hcond0_0 t).mp h)) (fun h => h1 ((hcond0_1 t).mp h)) (iblk0 V c 0 t) _ _ Set.univ _)
      isplitl [H0]; · iexact H0
      isplitl [H1]; · iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, HR, Hg⟩
  isplitl [HS0]
  · iexists _; iexact HS0
  isplitl [HR]; · iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Region0

end Cert.KernelIdeal.Hand

end
-- ==== Proof.CoreBody.lean ====
/- The class-A half of REGION 1 (custom_call 1, `cc1__core_kernel`, pipeline 1) of the program `Cert.KernelIdeal`, at a parameter `V`: the TensorCore's
   buffer contents when the region is entered. Each window's block at a point, the output's staging buffer after the
   body as the canonical contents of its one store, the body's triple over the skeleton, the pipeline's proof data and
   the body obligation, at any float instance. -/
import proofs.«135818_j22402549416655_2_alg».proof.Proof.Gen.KernelIdeal.Launch
import proofs.«135818_j22402549416655_2_alg».proof.Proof.Gen.KernelIdeal.Skeleton
import proofs.«135818_j22402549416655_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! # REGION 1 of @main: custom_call 1, `cc1__core_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x1024 := Rect.unit (s := S1024x1024) ![0, 0] S1024x1024.size inb_S1024x1024_S1024x1024_0_0

/-! ## What the body leaves in the output window's buffer -/

/-- Window 3's staging buffer after the body, from the input windows' blocks: its one store as a piece
    (`View.canon`; the payload is the skeleton's). -/
def out1_3 (x0 x1 x2 : Vec F S1024x1024 .f32) : Vec F S1024x1024 .bf16 :=
  View.canon [⟨r1_0, k1_pay1 (View.ld x0 r1_0) (View.ld x1 r1_0) (View.ld x2 r1_0)⟩]

/-- Its store tiles the buffer, so it covers it. -/
theorem cover1_3 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

/-! ## The body's triple -/

set_option maxHeartbeats 1000000 in
/-- The kernel body on whole staging memrefs, the inputs' at read contents `xW` and the output's at anything, runs to
    the continuation holding the inputs' as they were and the output's at `out1_3` of the inputs': the printed function
    is its skeleton, run operation by operation (the output's buffer is read once, unused, before it is stored). -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole)
    (x0 : Vec F S1024x1024 .f32) (x1 : Vec F S1024x1024 .f32) (x2 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__core_kernel i arg1 harg1 arg2 harg2 arg3 harg3 arg4 harg4) K := by
  simp only [cc1__core_kernel_eq_skeleton]; unfold cc1__core_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant the
    scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FinalBody.lean ====
/- The class-A half of REGION 2 (custom_call 2, `cc2__final_kernel`, pipeline 2) of the program `Cert.KernelIdeal`, at a parameter `V`: the TensorCore's
   buffer contents when the region is entered. Each window's block at a point, the output's staging buffer after the
   body as the canonical contents of its one store, the body's triple over the skeleton, the pipeline's proof data and
   the body obligation, at any float instance. -/
import proofs.«135818_j22402549416655_2_alg».proof.Proof.Gen.KernelIdeal.Launch
import proofs.«135818_j22402549416655_2_alg».proof.Proof.Gen.KernelIdeal.Skeleton
import proofs.«135818_j22402549416655_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! # REGION 2 of @main: custom_call 2, `cc2__final_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x1024 := Rect.unit (s := S1024x1024) ![0, 0] S1024x1024.size inb_S1024x1024_S1024x1024_0_0

/-! ## What the body leaves in the output window's buffer -/

/-- Window 2's staging buffer after the body, from the input windows' blocks: its one store as a piece
    (`View.canon`; the payload is the skeleton's). A rectangle is of a shape alone, so the two inputs, of different
    element types, are read through the same one. -/
def out2_2 (x0 : Vec F S1024x1024 .f32) (x1 : Vec F S1024x1024 .bf16) : Vec F S1024x1024 .f32 :=
  View.canon [⟨r2_0, k2_pay1 (View.ld x0 r2_0) (View.ld x1 r2_0)⟩]

/-- Its store tiles the buffer, so it covers it. -/
theorem cover2_2 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `xW` and the output's at anything, runs to
    the continuation holding the inputs' as they were and the output's at `out2_2` of the inputs': the printed function
    is its skeleton, run operation by operation (the output's buffer is read once, unused, before it is stored). -/
theorem sound_kernel2 (c : Dev nD) (E : Set ℕ) (i : grid2.Coords) (arg1 : Memref sig .tc .vmem S1024x1024 .f32) (harg1 : arg1.IsWhole) (arg2 : Memref sig .tc .vmem S1024x1024 .bf16) (harg2 : arg2.IsWhole) (arg3 : Memref sig .tc .vmem S1024x1024 .f32) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__final_kernel i arg1 harg1 arg2 harg2 arg3 harg3) K := by
  simp only [cc2__final_kernel_eq_skeleton]; unfold cc2__final_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Run.lean ====
/-
  The run of the whole program: its three grid kernels and the host reduction between the first two, chained
  from the launch to the return.

  The buffer contents are followed from boundary to boundary: at launch (`Wa`); after the first kernel, whose
  output array holds what its write-backs left (`Wb`); after the host's two operations (`Wc`); after the second
  kernel (`Wd`); after the third (`We`). Each kernel is entered with its windows' arrays split out of the
  unscoped buffers and left with them put back; the first kernel's invariant also carries its accumulator.
  The conclusion: every weakly fair execution terminates without a fault, and every unscoped buffer ends at
  `We`; the three argument arrays are read back through the chain to their launch contents.
-/
import proofs.«135818_j22402549416655_2_alg».proof.Proof.GramBody
import proofs.«135818_j22402549416655_2_alg».proof.Proof.CoreBody
import proofs.«135818_j22402549416655_2_alg».proof.Proof.FinalBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first kernel's entry). -/
abbrev Wa : Dev nD → Valuation τ sig (Elt F) := fun c b => (s₀ m ρ).mem ((c : Dev nD), b)
/-- The same, read at the TensorCore's references. -/
abbrev Va : (c : Dev nD) → (b : Ref sig .tc) → Buf (Elt F) ((c : Thread nD τ).loc b) := fun c b => Wa m ρ c b

/-- After region 0: its windows' arrays at what the write-backs leave, every other buffer as the region found it. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
/-- The same, read at the TensorCore's references. -/
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the host's two operations (the second kernel's entry). -/
abbrev Wc : Dev nD → Valuation τ sig (Elt F) := fun c => StableHlo.after hostOps1 (Wb m ρ c)
abbrev Vc : (c : Dev nD) → (b : Ref sig .tc) → Buf (Elt F) ((c : Thread nD τ).loc b) := fun c b => Wc m ρ c b

/-- After region 1: its windows' arrays at what the write-backs leave, every other buffer as the region found it. -/
def Wd (c : Dev nD) : Valuation τ sig (Elt F) :=
  Pipeline.withArrays spec1 c (Wc m ρ c) fun w => (dat1 (Vc m ρ) c).arrAt w cfg1.N
theorem Wd_arr (c : Dev nD) (w : Fin cfg1.W) :
    Wd m ρ c (Proc.devRef .tc (Pipeline.arrRef spec1 w)) = (dat1 (Vc m ρ) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m ρ c (Proc.devRef .tc b) = Wc m ρ c (Proc.devRef .tc b) := by
  unfold Wd; exact Pipeline.withArrays_of_ne spec1 c _ _ b hb
/-- The same, read at the TensorCore's references. -/
abbrev Vd : (c : Dev nD) → (b : Ref sig .tc) → Buf (Elt F) ((c : Thread nD τ).loc b) := fun c b => Wd m ρ c b
theorem hF1 (c : Dev nD) (w : Fin cfg1.W) : (dat1 (Vc m ρ) c).arrAt w cfg1.N = Vd m ρ c (Pipeline.arrRef spec1 w) :=
  (Wd_arr m ρ c w).symm
theorem hrest1 (c : Dev nD) : ∀ b, b ∉ Finset.univ.image (Pipeline.arrRef spec1) → Vd m ρ c b = Vc m ρ c b :=
  fun b hb => Wd_of_ne m ρ c b fun w e => hb (Finset.mem_image.mpr ⟨w, Finset.mem_univ _, e⟩)

/-- After region 2: its windows' arrays at what the write-backs leave, every other buffer as the region found it. -/
def We (c : Dev nD) : Valuation τ sig (Elt F) :=
  Pipeline.withArrays spec2 c (Wd m ρ c) fun w => (dat2 (Vd m ρ) c).arrAt w cfg2.N
theorem We_arr (c : Dev nD) (w : Fin cfg2.W) :
    We m ρ c (Proc.devRef .tc (Pipeline.arrRef spec2 w)) = (dat2 (Vd m ρ) c).arrAt w cfg2.N := by
  unfold We; exact Pipeline.withArrays_arr spec2 launch2.win.arr_inj c _ _ w
theorem We_of_ne (c : Dev nD) (b : Ref sig .tc) (hb : ∀ w, Pipeline.arrRef spec2 w ≠ b) :
    We m ρ c (Proc.devRef .tc b) = Wd m ρ c (Proc.devRef .tc b) := by
  unfold We; exact Pipeline.withArrays_of_ne spec2 c _ _ b hb
/-- The same, read at the TensorCore's references. -/
abbrev Ve : (c : Dev nD) → (b : Ref sig .tc) → Buf (Elt F) ((c : Thread nD τ).loc b) := fun c b => We m ρ c b
theorem hF2 (c : Dev nD) (w : Fin cfg2.W) : (dat2 (Vd m ρ) c).arrAt w cfg2.N = Ve m ρ c (Pipeline.arrRef spec2 w) :=
  (We_arr m ρ c w).symm
theorem hrest2 (c : Dev nD) : ∀ b, b ∉ Finset.univ.image (Pipeline.arrRef spec2) → Ve m ρ c b = Vd m ρ c b :=
  fun b hb => We_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vc m ρ) c
  | ⟨2, _⟩ => fun c => dat2 (Vd m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps1_noFresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (We m ρ c) ∗ ∃ r, prngReg c r)

/-! ## The regions as segments -/

set_option backward.isDefEq.respectTransparency.types false in
/-- Region 0 over the thread state: entered with every unscoped buffer at `Wa`, left with them at `Wb`.
    Its windows' arrays are split out of the unscoped buffers and put back at what the write-backs leave; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (show (Pipeline.ΦA spec0 c : sProp 𝕄) ⊢ (pdats m ρ 0 c).Φ 0 from hin0 (Va m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (Va m ρ) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wc`, left with them at `Wd`.
    Its windows' arrays are split out of the unscoped buffers and put back at what the write-backs leave; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m ρ) c).loose
  hwaits := Pipeline.hwaits_of_owed_zero _ _ _ _ L lv 1 fun _ _ => rfl
  pre c := iprop(StableHlo.held (c : Thread nD τ) (Pipeline.ucRefs τ sig) (Wc m ρ c) ∗ R c)
  post c := iprop(StableHlo.held (c : Thread nD τ) (Pipeline.ucRefs τ sig) (Wd m ρ c) ∗ R c)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vc m ρ c) (Vd m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wd`, left with them at `We`.
    Its windows' arrays are split out of the unscoped buffers and put back at what the write-backs leave; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vd m ρ) c).loose
  hwaits := Pipeline.hwaits_of_owed_zero _ _ _ _ L lv 2 fun _ _ => rfl
  pre c := iprop(StableHlo.held (c : Thread nD τ) (Pipeline.ucRefs τ sig) (Wd m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vd m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vd m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vd m ρ c) (Ve m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_noFresh (Wb m ρ)),
    .region (reg1 m ρ),
    .region (reg2 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and
    every unscoped buffer ends at the last boundary's contents `We`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c => h c)

end Cert.KernelIdeal.Hand

end
-- ==== Proof.Args.lean ====
/-
  The three argument arrays through the chain of buffer contents: no kernel writes an argument (each reads it
  through an input window, or does not touch it) and neither host operation does, so each boundary's contents at
  an argument's buffer walk back to the launch memory. With the run of the whole program this is the frame claim.
-/
import proofs.«135818_j22402549416655_2_alg».proof.Proof.Run

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- Neither host operation writes `b` when `b` is neither the zero constant's buffer nor the sum's. -/
theorem Wc_of_ne (c : Dev nD) (b : Ref sig .tc) (h0 : b ≠ main_cst) (h1 : b ≠ main_v1) :
    Wc m ρ c (Proc.devRef .tc b) = Wb m ρ c (Proc.devRef .tc b) :=
  StableHlo.after_of_forall_not_mem (b := Proc.devRef .tc b) _ _ (List.forall_iff_forall_mem.mp (by
    simp only [hostOps1, List.Forall, StableHlo.nullary_writes, StableHlo.binary_writes, Finset.mem_singleton]
    exact ⟨StableHlo.devRef_ne_of_ne h0, StableHlo.devRef_ne_of_ne h1⟩))

/-! ## After the first kernel -/

theorem Wb_main_arg0 (c : Dev nD) : Wb m ρ c (Proc.devRef .tc main_arg0) = m ((c : Thread nD τ).loc main_arg0) :=
  (Wb_arr m ρ c 0).trans (((dat0 (Va m ρ) c).arrAt_in 0 rfl _).trans (A_eq0 (Va m ρ) c 0))
theorem Wb_main_arg1 (c : Dev nD) : Wb m ρ c (Proc.devRef .tc main_arg1) = m ((c : Thread nD τ).loc main_arg1) :=
  Wb_of_ne m ρ c main_arg1 (by decide)
theorem Wb_main_arg2 (c : Dev nD) : Wb m ρ c (Proc.devRef .tc main_arg2) = m ((c : Thread nD τ).loc main_arg2) :=
  Wb_of_ne m ρ c main_arg2 (by decide)

/-! ## After the host's sum -/

theorem Wc_main_arg0 (c : Dev nD) : Wc m ρ c (Proc.devRef .tc main_arg0) = m ((c : Thread nD τ).loc main_arg0) :=
  (Wc_of_ne m ρ c main_arg0 (by decide) (by decide)).trans (Wb_main_arg0 m ρ c)
theorem Wc_main_arg1 (c : Dev nD) : Wc m ρ c (Proc.devRef .tc main_arg1) = m ((c : Thread nD τ).loc main_arg1) :=
  (Wc_of_ne m ρ c main_arg1 (by decide) (by decide)).trans (Wb_main_arg1 m ρ c)
theorem Wc_main_arg2 (c : Dev nD) : Wc m ρ c (Proc.devRef .tc main_arg2) = m ((c : Thread nD τ).loc main_arg2) :=
  (Wc_of_ne m ρ c main_arg2 (by decide) (by decide)).trans (Wb_main_arg2 m ρ c)

/-! ## After the second kernel -/

theorem Wd_main_arg0 (c : Dev nD) : Wd m ρ c (Proc.devRef .tc main_arg0) = m ((c : Thread nD τ).loc main_arg0) :=
  (Wd_of_ne m ρ c main_arg0 (by decide)).trans (Wc_main_arg0 m ρ c)
theorem Wd_main_arg1 (c : Dev nD) : Wd m ρ c (Proc.devRef .tc main_arg1) = m ((c : Thread nD τ).loc main_arg1) :=
  (Wd_arr m ρ c 1).trans (((dat1 (Vc m ρ) c).arrAt_in 1 rfl _).trans ((A_eq1 (Vc m ρ) c 1).trans (Wc_main_arg1 m ρ c)))
theorem Wd_main_arg2 (c : Dev nD) : Wd m ρ c (Proc.devRef .tc main_arg2) = m ((c : Thread nD τ).loc main_arg2) :=
  (Wd_arr m ρ c 2).trans (((dat1 (Vc m ρ) c).arrAt_in 2 rfl _).trans ((A_eq1 (Vc m ρ) c 2).trans (Wc_main_arg2 m ρ c)))

/-! ## After the third kernel -/

theorem We_main_arg0 (c : Dev nD) : We m ρ c (Proc.devRef .tc main_arg0) = m ((c : Thread nD τ).loc main_arg0) :=
  (We_arr m ρ c 0).trans (((dat2 (Vd m ρ) c).arrAt_in 0 rfl _).trans ((A_eq2 (Vd m ρ) c 0).trans (Wd_main_arg0 m ρ c)))
theorem We_main_arg1 (c : Dev nD) : We m ρ c (Proc.devRef .tc main_arg1) = m ((c : Thread nD τ).loc main_arg1) :=
  (We_of_ne m ρ c main_arg1 (by decide)).trans (Wd_main_arg1 m ρ c)
theorem We_main_arg2 (c : Dev nD) : We m ρ c (Proc.devRef .tc main_arg2) = m ((c : Thread nD τ).loc main_arg2) :=
  (We_of_ne m ρ c main_arg2 (by decide)).trans (Wd_main_arg2 m ρ c)

/-- THE FRAME, at any float instance: the program terminates without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (We_main_arg0 m ρ c),
     (h c _ (mem_uc main_arg1 (by decide))).trans (We_main_arg1 m ρ c),
     (h c _ (mem_uc main_arg2 (by decide))).trans (We_main_arg2 m ρ c)⟩) (run_all m ρ)

end Cert.KernelIdeal.Hand

end
-- ==== Proof.Spec.lean ====
/-
  The kernel's result as ONE function of its three argument arrays.

  The program runs three grid kernels. The first walks the 8192 rows of `x` in eight blocks of 1024 rows,
  in two groups of four; within a group it starts an accumulator at zero and adds, block after block,
  the product (normalized block)ᵀ · block; the group's accumulator is one of two partial Gram matrices.
  A host reduction adds the two partials. The second kernel forms `q · gram · p`, scaled by 2⁻¹³.
  The third, block by block, forms (normalized block) · core + block.
  Below each stage is written over the printed payload terms, so that the run of the program
  and the algebra about the result meet at the same terms.
-/
import proofs.«135818_j22402549416655_2_alg».proof.Proof.Gen.KernelIdeal.Skeleton
import Idealize.ShloMosaic.PureOps.Ideal
import Idealize.ShloMosaic.Lib.ValueIdx

noncomputable section

namespace Cert.KernelIdeal.Spec

open Idealize.ShloMosaic Cert.KernelIdeal Cert.KernelIdeal.Gen

variable {F : FTy → Type} [FloatOps F]

/-- Rows `1024·k … 1024·k + 1023` of an array of 8192 rows. -/
def rowBlock (x : Vec F S8192x1024 .f32) (k : Fin 8) : Vec F S1024x1024 .f32 :=
  fun y => x (ValueIdx.ix2 (⟨1024 * k.val + (y 0).val, by
      have h : (y 0).val < 1024 := (y 0).isLt
      have hk : k.val < 8 := k.isLt
      omega⟩ : Fin 8192) (⟨(y 1).val, (y 1).isLt⟩ : Fin 1024))

/-- The accumulator after the `n`-th block (`n = 4·g + j`): reset to the zero fill when `j = 0`, then the
    block's product added. `blk n` is the `n`-th block of rows. -/
def gramAcc (blk : ℕ → Vec F S1024x1024 .f32) : ℕ → Vec F S1024x1024 .f32
  | 0 => k0_pay2 (blk 0) (k0_pay1 (F := F))
  | n + 1 => k0_pay2 (blk (n + 1)) (if (n + 1) % 4 = 0 then (k0_pay1 (F := F)) else gramAcc blk n)

/-- The blocks of `x`, numbered by naturals (the index taken mod 8). -/
def blocksOf (x : Vec F S8192x1024 .f32) (n : ℕ) : Vec F S1024x1024 .f32 :=
  rowBlock x ⟨n % 8, Nat.mod_lt _ (by decide)⟩

/-- The two partial Gram matrices, stacked: group `g`'s is the accumulator after its fourth block, reshaped. -/
def partials (x : Vec F S8192x1024 .f32) : Vec F S2x1024x1024 .f32 :=
  fun i => k0_pay3 (gramAcc (blocksOf x) (4 * (i 0).val + 3))
    (ValueIdx.ix3 (0 : Fin 1) (⟨(i 1).val, (i 1).isLt⟩ : Fin 1024) (⟨(i 2).val, (i 2).isLt⟩ : Fin 1024))

/-- The Gram matrix: the host's sum of the two partials over the leading axis, from the zero constant. -/
def gram (x : Vec F S8192x1024 .f32) : Vec F S1024x1024 .f32 :=
  Host.reduceAdd (F := F) (partials x) (constant S_ .f32 0x00000000#32) reducesTo_S2x1024x1024_S1024x1024_d0 h_S_

/-- The core matrix `(q · gram · p) · 2⁻¹³`, as the second kernel's payload. -/
def core (x : Vec F S8192x1024 .f32) (q p : Vec F S1024x1024 .f32) : Vec F S1024x1024 .bf16 :=
  k1_pay1 (gram x) q p

/-- The result: row `r` lies in block `r / 1024`, at row `r % 1024` of the third kernel's payload there. -/
def result (x : Vec F S8192x1024 .f32) (q p : Vec F S1024x1024 .f32) : Vec F S8192x1024 .f32 :=
  fun i => k2_pay1 (rowBlock x ⟨(i 0).val / 1024, by
      have h : (i 0).val < 8192 := (i 0).isLt
      omega⟩) (core x q p)
    (ValueIdx.ix2 (⟨(i 0).val % 1024, Nat.mod_lt _ (by decide)⟩ : Fin 1024) (⟨(i 1).val, (i 1).isLt⟩ : Fin 1024))

end Cert.KernelIdeal.Spec

end
-- ==== Proof.Blocks.lean ====
/-
  Where each window's block sits in its array, decided once over the grids, and what reading a block gives.

  The first and third kernels walk the 8192 rows of `x` in blocks of 1024 rows: block `t` is rows
  `1024·t … 1024·t + 1023`. The first kernel's output block at point `t` is slab `t / 4` of the stacked
  partials; the third kernel's output block at point `t` is again rows `1024·t …`. Every window of the second
  kernel, and the third kernel's second window, is the whole 1024 × 1024 array.
-/
import proofs.«135818_j22402549416655_2_alg».proof.Proof.Gen.KernelIdeal.Launch
import proofs.«135818_j22402549416655_2_alg».proof.Proof.Gen.KernelIdeal.Points
import proofs.«135818_j22402549416655_2_alg».proof.Proof.Spec
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]

/-! ## The printed index maps over the grids -/

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 3) = t.val / 4 ∧ win0_1.index t (1 : Fin 3) = 0 ∧ win0_1.index t (2 : Fin 3) = 0 :=
  (by decide +kernel : ∀ t : Fin grid0.N, win0_1.index t (0 : Fin 3) = t.val / 4 ∧ win0_1.index t (1 : Fin 3) = 0 ∧ win0_1.index t (2 : Fin 3) = 0)
theorem idx1_0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2_2 : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)

/-! ## Reading a block -/

/-- Block `t` of the first kernel's input window is rows `1024·t …` of its array. -/
theorem read_blk0_0 (A : Vec F S8192x1024 .f32) (t : Fin cfg0.N) :
    ((cfg0.win 0).blk t).view.read (Elt F) A = Spec.rowBlock A ⟨t.val, lt_of_lt_of_eq t.isLt N_0⟩ := by
  funext y
  show A (((cfg0.win 0).blk t).view.emb y) = A _
  refine congrArg A ?_
  funext a; apply Fin.ext
  match a with
  | ⟨0, _⟩ => show win0_0.index t (0 : Fin 2) * 1024 + 1 * (y 0).val = 1024 * t.val + (y 0).val; rw [(idx0_0 t).1]; omega
  | ⟨1, _⟩ => show win0_0.index t (1 : Fin 2) * 1024 + 1 * (y 1).val = (y 1).val; rw [(idx0_0 t).2]; omega

/-- Block `t` of the third kernel's first input window is rows `1024·t …` of its array. -/
theorem read_blk2_0 (A : Vec F S8192x1024 .f32) (t : Fin cfg2.N) :
    ((cfg2.win 0).blk t).view.read (Elt F) A = Spec.rowBlock A ⟨t.val, lt_of_lt_of_eq t.isLt N_2⟩ := by
  funext y
  show A (((cfg2.win 0).blk t).view.emb y) = A _
  refine congrArg A ?_
  funext a; apply Fin.ext
  match a with
  | ⟨0, _⟩ => show win2_0.index t (0 : Fin 2) * 1024 + 1 * (y 0).val = 1024 * t.val + (y 0).val; rw [(idx2_0 t).1]; omega
  | ⟨1, _⟩ => show win2_0.index t (1 : Fin 2) * 1024 + 1 * (y 1).val = (y 1).val; rw [(idx2_0 t).2]; omega

/-- The second kernel's windows, and the third kernel's second, are the whole array: reading the block gives the array. -/
theorem read_blk1_0 (A : Vec F S1024x1024 .f32) (t : Fin cfg1.N) : ((cfg1.win 0).blk t).view.read (Elt F) A = A := by
  funext y
  show A (((cfg1.win 0).blk t).view.emb y) = A y
  refine congrArg A ?_
  funext a; apply Fin.ext
  match a with
  | ⟨0, _⟩ => show win1_0.index t (0 : Fin 2) * 1024 + 1 * (y 0).val = (y 0).val; rw [(idx1_0 t).1]; omega
  | ⟨1, _⟩ => show win1_0.index t (1 : Fin 2) * 1024 + 1 * (y 1).val = (y 1).val; rw [(idx1_0 t).2]; omega
theorem read_blk1_1 (A : Vec F S1024x1024 .f32) (t : Fin cfg1.N) : ((cfg1.win 1).blk t).view.read (Elt F) A = A := by
  funext y
  show A (((cfg1.win 1).blk t).view.emb y) = A y
  refine congrArg A ?_
  funext a; apply Fin.ext
  match a with
  | ⟨0, _⟩ => show win1_1.index t (0 : Fin 2) * 1024 + 1 * (y 0).val = (y 0).val; rw [(idx1_1 t).1]; omega
  | ⟨1, _⟩ => show win1_1.index t (1 : Fin 2) * 1024 + 1 * (y 1).val = (y 1).val; rw [(idx1_1 t).2]; omega
theorem read_blk1_2 (A : Vec F S1024x1024 .f32) (t : Fin cfg1.N) : ((cfg1.win 2).blk t).view.read (Elt F) A = A := by
  funext y
  show A (((cfg1.win 2).blk t).view.emb y) = A y
  refine congrArg A ?_
  funext a; apply Fin.ext
  match a with
  | ⟨0, _⟩ => show win1_2.index t (0 : Fin 2) * 1024 + 1 * (y 0).val = (y 0).val; rw [(idx1_2 t).1]; omega
  | ⟨1, _⟩ => show win1_2.index t (1 : Fin 2) * 1024 + 1 * (y 1).val = (y 1).val; rw [(idx1_2 t).2]; omega
theorem read_blk1_3 (A : Vec F S1024x1024 .bf16) (t : Fin cfg1.N) : ((cfg1.win 3).blk t).view.read (Elt F) A = A := by
  funext y
  show A (((cfg1.win 3).blk t).view.emb y) = A y
  refine congrArg A ?_
  funext a; apply Fin.ext
  match a with
  | ⟨0, _⟩ => show win1_3.index t (0 : Fin 2) * 1024 + 1 * (y 0).val = (y 0).val; rw [(idx1_3 t).1]; omega
  | ⟨1, _⟩ => show win1_3.index t (1 : Fin 2) * 1024 + 1 * (y 1).val = (y 1).val; rw [(idx1_3 t).2]; omega
theorem read_blk2_1 (A : Vec F S1024x1024 .bf16) (t : Fin cfg2.N) : ((cfg2.win 1).blk t).view.read (Elt F) A = A := by
  funext y
  show A (((cfg2.win 1).blk t).view.emb y) = A y
  refine congrArg A ?_
  funext a; apply Fin.ext
  match a with
  | ⟨0, _⟩ => show win2_1.index t (0 : Fin 2) * 1024 + 1 * (y 0).val = (y 0).val; rw [(idx2_1 t).1]; omega
  | ⟨1, _⟩ => show win2_1.index t (1 : Fin 2) * 1024 + 1 * (y 1).val = (y 1).val; rw [(idx2_1 t).2]; omega

/-! ## Which indices a block covers -/

theorem mem_blk0_1 (t : Fin cfg0.N) (i : S2x1024x1024.Idx) :
    i ∈ ((cfg0.win 1).blk t).view.set ↔ ∀ a : Fin 3, win0_1.index t a * S1x1024x1024.size a ≤ (i a).val ∧ (i a).val < win0_1.index t a * S1x1024x1024.size a + S1x1024x1024.size a := by
  show i ∈ ((View.whole main_v0).slice (win0_1.rect t)).set ↔ _
  rw [View.set_slice_whole, Rect.mem_set_unit]
  exact Iff.rfl
theorem mem_blk1_3 (t : Fin cfg1.N) (i : S1024x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl
theorem mem_blk2_2 (t : Fin cfg2.N) (i : S8192x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v3).slice (win2_2.rect t)).set ↔ _
  rw [View.set_slice_whole, Rect.mem_set_unit]
  exact Iff.rfl

/-- Every index of the stacked partials lies in the block written back at the last point of its group. -/
theorem arrCover0 (i : S2x1024x1024.Idx) : ∃ t : Fin cfg0.N, (cfg0.win 1).flush t = true ∧ i ∈ ((cfg0.win 1).blk t).view.set := by
  have h0 : (i 0).val < 2 := (i 0).isLt
  have h1 : (i 1).val < 1024 := (i 1).isLt
  have h2 : (i 2).val < 1024 := (i 2).isLt
  have hlt : 4 * (i 0).val + 3 < cfg0.N := by rw [show cfg0.N = 8 from N_0]; omega
  refine ⟨⟨4 * (i 0).val + 3, hlt⟩, (flush0_1 _).mpr (by show (4 * (i 0).val + 3) % 4 = 3; omega), ?_⟩
  rw [mem_blk0_1]
  obtain ⟨e0, e1, e2⟩ := idx0_1 ⟨4 * (i 0).val + 3, hlt⟩
  have e0' : win0_1.index ⟨4 * (i 0).val + 3, hlt⟩ (0 : Fin 3) = (i 0).val := by rw [e0]; show (4 * (i 0).val + 3) / 4 = (i 0).val; omega
  intro a
  match a with
  | ⟨0, _⟩ => show win0_1.index _ (0 : Fin 3) * 1 ≤ (i 0).val ∧ (i 0).val < win0_1.index _ (0 : Fin 3) * 1 + 1; rw [e0']; omega
  | ⟨1, _⟩ => show win0_1.index _ (1 : Fin 3) * 1024 ≤ (i 1).val ∧ (i 1).val < win0_1.index _ (1 : Fin 3) * 1024 + 1024; rw [e1]; omega
  | ⟨2, _⟩ => show win0_1.index _ (2 : Fin 3) * 1024 ≤ (i 2).val ∧ (i 2).val < win0_1.index _ (2 : Fin 3) * 1024 + 1024; rw [e2]; omega

/-- The second kernel's one output block is the whole core array. -/
theorem arrCover1 (i : S1024x1024.Idx) : ∃ t : Fin cfg1.N, (cfg1.win 3).flush t = true ∧ i ∈ ((cfg1.win 3).blk t).view.set := by
  have h0 : (i 0).val < 1024 := (i 0).isLt
  have h1 : (i 1).val < 1024 := (i 1).isLt
  refine ⟨t1_0, flush1_3 _, ?_⟩
  rw [mem_blk1_3]
  obtain ⟨e0, e1⟩ := idx1_3 t1_0
  intro a
  match a with
  | ⟨0, _⟩ => show win1_3.index _ (0 : Fin 2) * 1024 ≤ (i 0).val ∧ (i 0).val < win1_3.index _ (0 : Fin 2) * 1024 + 1024; rw [e0]; omega
  | ⟨1, _⟩ => show win1_3.index _ (1 : Fin 2) * 1024 ≤ (i 1).val ∧ (i 1).val < win1_3.index _ (1 : Fin 2) * 1024 + 1024; rw [e1]; omega

/-- Row `r` of the result lies in the block written back at point `r / 1024`. -/
theorem arrCover2 (i : S8192x1024.Idx) : ∃ t : Fin cfg2.N, (cfg2.win 2).flush t = true ∧ i ∈ ((cfg2.win 2).blk t).view.set := by
  have h0 : (i 0).val < 8192 := (i 0).isLt
  have h1 : (i 1).val < 1024 := (i 1).isLt
  have hlt : (i 0).val / 1024 < cfg2.N := by rw [show cfg2.N = 8 from N_2]; omega
  refine ⟨⟨(i 0).val / 1024, hlt⟩, flush2_2 _, ?_⟩
  rw [mem_blk2_2]
  obtain ⟨e0, e1⟩ := idx2_2 ⟨(i 0).val / 1024, hlt⟩
  have e0' : win2_2.index ⟨(i 0).val / 1024, hlt⟩ (0 : Fin 2) = (i 0).val / 1024 := e0
  intro a
  match a with
  | ⟨0, _⟩ => show win2_2.index _ (0 : Fin 2) * 1024 ≤ (i 0).val ∧ (i 0).val < win2_2.index _ (0 : Fin 2) * 1024 + 1024; rw [e0']; omega
  | ⟨1, _⟩ => show win2_2.index _ (1 : Fin 2) * 1024 ≤ (i 1).val ∧ (i 1).val < win2_2.index _ (1 : Fin 2) * 1024 + 1024; rw [e1]; omega

end Cert.KernelIdeal.Hand

end
-- ==== Proof.Values.lean ====
/-
  What each array holds at the end of the run, as the specification's functions of the three arguments.

  Following the chain of buffer contents: the first kernel leaves the stacked partial Gram matrices in its
  output (each group's accumulator after its fourth block, written back at that point only); the host sums the
  two; the second kernel's one point writes the whole core matrix; the third kernel's point `t` writes rows
  `1024·t …` of the result.
-/
import proofs.«135818_j22402549416655_2_alg».proof.Proof.Args
import proofs.«135818_j22402549416655_2_alg».proof.Proof.Blocks
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem hzero2 : (![0, 0] : Fin 2 → Nat) = fun _ => 0 := funext fun a => by fin_cases a <;> rfl

/-! ## The first kernel: the stacked partials -/

/-- The block the first kernel reads at point `n` is the `n`-th block of rows of `x`. -/
theorem iblk0_eq (c : Dev nD) (n : ℕ) (hn : n < cfg0.N) :
    iblk0 (Va m ρ) c 0 ⟨n, hn⟩ = Spec.blocksOf (m ((c : Thread nD τ).loc main_arg0)) n := by
  unfold iblk0
  show ((cfg0.win 0).blk ⟨n, hn⟩).view.read (Elt F) (m ((c : Thread nD τ).loc main_arg0)) = _
  rw [read_blk0_0]
  unfold Spec.blocksOf
  refine congrArg (Spec.rowBlock _) (Fin.ext ?_)
  show n = n % 8
  have : n < 8 := lt_of_lt_of_eq hn N_0
  omega

/-- The accumulator after point `n` is the specification's. -/
theorem acc0_eq (c : Dev nD) : ∀ (n : ℕ) (hn : n < cfg0.N),
    acc0 (Va m ρ) c n hn = Spec.gramAcc (Spec.blocksOf (m ((c : Thread nD τ).loc main_arg0))) n
  | 0, hn => by rw [acc0_reset (Va m ρ) c 0 hn rfl, iblk0_eq]; rfl
  | n + 1, hn => by
    by_cases h : (n + 1) % 4 = 0
    · rw [acc0_reset (Va m ρ) c (n + 1) hn h, iblk0_eq]
      show _ = k0_pay2 _ (if (n + 1) % 4 = 0 then _ else _)
      rw [if_pos h]
    · rw [acc0_step (Va m ρ) c n hn h, iblk0_eq, acc0_eq c n (Nat.lt_of_succ_lt hn)]
      show _ = k0_pay2 _ (if (n + 1) % 4 = 0 then _ else _)
      rw [if_neg h]

/-- What a writing point of the first kernel writes back is its slab of the stacked partials. -/
theorem flushed0_eq (c : Dev nD) (t : Fin cfg0.N) (hf : (cfg0.win 1).flush t = true) :
    (dat0 (Va m ρ) c).flushed 1 t = ((cfg0.win 1).blk t).view.read (Elt F) (Spec.partials (m ((c : Thread nD τ).loc main_arg0))) := by
  have h3 : t.val % 4 = 3 := (flush0_1 t).mp hf
  show (cfg0.win 1).cut (grid0.coords t) ((dat0 (Va m ρ) c).after 1 t) = _
  rw [after0_1 (Va m ρ) c t h3, acc0_eq]
  funext y
  have hy0 : (y 0).val = 0 := by have : (y 0).val < 1 := (y 0).isLt; omega
  show k0_pay3 _ y = Spec.partials _ (((cfg0.win 1).blk t).view.emb y)
  unfold Spec.partials
  have e : 4 * ((((cfg0.win 1).blk t).view.emb y) 0).val + 3 = t.val := by
    show 4 * (win0_1.index t (0 : Fin 3) * 1 + 1 * (y 0).val) + 3 = t.val
    rw [(idx0_1 t).1]; omega
  show _ = k0_pay3 (Spec.gramAcc _ (4 * ((((cfg0.win 1).blk t).view.emb y) 0).val + 3)) _
  rw [e]
  refine congrArg (k0_pay3 _) ?_
  funext a; apply Fin.ext
  match a with
  | ⟨0, _⟩ => show (y 0).val = 0; exact hy0
  | ⟨1, _⟩ => show (y 1).val = win0_1.index t (1 : Fin 3) * 1024 + 1 * (y 1).val; rw [(idx0_1 t).2.1]; omega
  | ⟨2, _⟩ => show (y 2).val = win0_1.index t (2 : Fin 3) * 1024 + 1 * (y 2).val; rw [(idx0_1 t).2.2]; omega

theorem Wb_main_v0 (c : Dev nD) : Wb m ρ c (Proc.devRef .tc main_v0) = Spec.partials (m ((c : Thread nD τ).loc main_arg0)) :=
  (Wb_arr m ρ c 1).trans ((dat0 (Va m ρ) c).arrAt_eq_of_cover 1 _ (fun t hf => flushed0_eq m ρ c t hf) arrCover0)

/-! ## The host's sum -/

theorem Wc_main_v1 (c : Dev nD) : Wc m ρ c (Proc.devRef .tc main_v1) = Spec.gram (m ((c : Thread nD τ).loc main_arg0)) := by
  show StableHlo.after hostOps1 (Wb m ρ c) (Proc.devRef .tc main_v1) = _
  after_results
  rw [Wb_main_v0]
  rfl
/-! ## The second kernel: the core matrix -/

theorem flushed1_eq (c : Dev nD) (t : Fin cfg1.N) :
    (dat1 (Vc m ρ) c).flushed 3 t = ((cfg1.win 3).blk t).view.read (Elt F)
      (Spec.core (m ((c : Thread nD τ).loc main_arg0)) (m ((c : Thread nD τ).loc main_arg1)) (m ((c : Thread nD τ).loc main_arg2))) := by
  show (cfg1.win 3).cut (grid1.coords t) ((dat1 (Vc m ρ) c).after 3 t) = _
  rw [after1_3, read_blk1_3]
  unfold out1_3
  rw [View.canon_unit_zero hzero2]
  simp only [View.ld_unit_zero (S := S1024x1024) hzero2]
  have e0 : iblk1 (Vc m ρ) c 0 t = Spec.gram (m ((c : Thread nD τ).loc main_arg0)) := by
    unfold iblk1
    show ((cfg1.win 0).blk t).view.read (Elt F) (Wc m ρ c (Proc.devRef .tc main_v1)) = _
    rw [read_blk1_0, Wc_main_v1]
  have e1 : iblk1 (Vc m ρ) c 1 t = m ((c : Thread nD τ).loc main_arg1) := by
    unfold iblk1
    show ((cfg1.win 1).blk t).view.read (Elt F) (Wc m ρ c (Proc.devRef .tc main_arg1)) = _
    rw [read_blk1_1, Wc_main_arg1]
  have e2 : iblk1 (Vc m ρ) c 2 t = m ((c : Thread nD τ).loc main_arg2) := by
    unfold iblk1
    show ((cfg1.win 2).blk t).view.read (Elt F) (Wc m ρ c (Proc.devRef .tc main_arg2)) = _
    rw [read_blk1_2, Wc_main_arg2]
  rw [e0, e1, e2]
  rfl

theorem Wd_main_v2 (c : Dev nD) : Wd m ρ c (Proc.devRef .tc main_v2)
    = Spec.core (m ((c : Thread nD τ).loc main_arg0)) (m ((c : Thread nD τ).loc main_arg1)) (m ((c : Thread nD τ).loc main_arg2)) :=
  (Wd_arr m ρ c 3).trans ((dat1 (Vc m ρ) c).arrAt_eq_of_cover 3 _ (fun t _ => flushed1_eq m ρ c t) arrCover1)
/-! ## The third kernel: the result -/

theorem flushed2_eq (c : Dev nD) (t : Fin cfg2.N) :
    (dat2 (Vd m ρ) c).flushed 2 t = ((cfg2.win 2).blk t).view.read (Elt F)
      (Spec.result (m ((c : Thread nD τ).loc main_arg0)) (m ((c : Thread nD τ).loc main_arg1)) (m ((c : Thread nD τ).loc main_arg2))) := by
  show (cfg2.win 2).cut (grid2.coords t) ((dat2 (Vd m ρ) c).after 2 t) = _
  rw [after2_2]
  unfold out2_2
  rw [View.canon_unit_zero hzero2]
  simp only [View.ld_unit_zero (S := S1024x1024) hzero2]
  have e0 : iblk2 (Vd m ρ) c 0 t = Spec.rowBlock (m ((c : Thread nD τ).loc main_arg0)) ⟨t.val, lt_of_lt_of_eq t.isLt N_2⟩ := by
    unfold iblk2
    show ((cfg2.win 0).blk t).view.read (Elt F) (Wd m ρ c (Proc.devRef .tc main_arg0)) = _
    rw [read_blk2_0, Wd_main_arg0]
  have e1 : iblk2 (Vd m ρ) c 1 t = Spec.core (m ((c : Thread nD τ).loc main_arg0)) (m ((c : Thread nD τ).loc main_arg1)) (m ((c : Thread nD τ).loc main_arg2)) := by
    unfold iblk2
    show ((cfg2.win 1).blk t).view.read (Elt F) (Wd m ρ c (Proc.devRef .tc main_v2)) = _
    rw [read_blk2_1, Wd_main_v2]
  rw [e0, e1]
  funext y
  have hy0 : (y 0).val < 1024 := (y 0).isLt
  have ht : t.val < 8 := lt_of_lt_of_eq t.isLt N_2
  show _ = Spec.result _ _ _ (((cfg2.win 2).blk t).view.emb y)
  unfold Spec.result
  have e : ((((cfg2.win 2).blk t).view.emb y) 0).val = 1024 * t.val + (y 0).val := by
    show win2_2.index t (0 : Fin 2) * 1024 + 1 * (y 0).val = _
    rw [(idx2_2 t).1]; omega
  have e' : ((((cfg2.win 2).blk t).view.emb y) 1).val = (y 1).val := by
    show win2_2.index t (1 : Fin 2) * 1024 + 1 * (y 1).val = _
    rw [(idx2_2 t).2]; omega
  have hk : (⟨((((cfg2.win 2).blk t).view.emb y) 0).val / 1024, by rw [e]; omega⟩ : Fin 8) = ⟨t.val, ht⟩ := Fin.ext (by show _ / 1024 = t.val; rw [e]; omega)
  show _ = k2_pay1 (Spec.rowBlock _ ⟨((((cfg2.win 2).blk t).view.emb y) 0).val / 1024, _⟩) _ _
  rw [hk]
  refine congrArg (k2_pay1 _ _) ?_
  funext a; apply Fin.ext
  match a with
  | ⟨0, _⟩ => show (y 0).val = ((((cfg2.win 2).blk t).view.emb y) 0).val % 1024; rw [e]; omega
  | ⟨1, _⟩ => show (y 1).val = ((((cfg2.win 2).blk t).view.emb y) 1).val; rw [e']

theorem We_main_v3 (c : Dev nD) : We m ρ c (Proc.devRef .tc main_v3)
    = Spec.result (m ((c : Thread nD τ).loc main_arg0)) (m ((c : Thread nD τ).loc main_arg1)) (m ((c : Thread nD τ).loc main_arg2)) :=
  (We_arr m ρ c 2).trans ((dat2 (Vd m ρ) c).arrAt_eq_of_cover 2 _ (fun t _ => flushed2_eq m ρ c t) arrCover2)
/-! ## The run, read -/

/-- THE VALUE RUN: moreover the result array ends at the specification's function of the arguments. -/
theorem run_value : θ_run defs (onTc (τ := τ) (main (F := F))) ⟨m, fun _ => 0, ρ⟩ (fun r => ∀ c : Dev nD,
      r.2.mem ((c.tc : Thread nD τ).loc main_v3)
        = Spec.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (We_main_v3 m ρ c),
     (h c _ (mem_uc main_arg0 (by decide))).trans (We_main_arg0 m ρ c),
     (h c _ (mem_uc main_arg1 (by decide))).trans (We_main_arg1 m ρ c),
     (h c _ (mem_uc main_arg2 (by decide))).trans (We_main_arg2 m ρ c)⟩) (run_all m ρ)

end Cert.KernelIdeal.Hand

end
-- ==== Proof.KLayout.lean ====
/-
  Layout operations and the row norm read at an index given by coordinates.

  The column forms of a kept reduced axis: a vector of length a viewed as a column [a, 1], and a
  column [a, 1] repeated along b columns. With them the reciprocal norm of the rows of a block,
  as the two kernels that normalize rows spell it, is read at an element.
-/
import proofs.«135818_j22402549416655_2_alg».proof.Proof.Gen.KernelIdeal.Skeleton
import Idealize.ShloMosaic.PureOps.Ideal.Laws
import Idealize.ShloMosaic.Lib.ValueLayout

noncomputable section

open scoped BigOperators

namespace Cert.KernelIdeal.KValue

open Idealize.ShloMosaic Idealize.ShloMosaic.ValueIdx Cert.KernelIdeal Cert.KernelIdeal.Gen

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The reciprocal of the Euclidean norm of a row of 1024 extended reals: the word of one divided by the
    square root of the sum of the squares. -/
def rnormOf (row : Fin 1024 → EReal) : EReal :=
  Ideal.div (Ideal.ofBits .f32 0x3F800000#32) (Ideal.sqrt (∑ k : Fin 1024, row k * row k))

/-- The sum of the squares along the rows of a block, read at row `y`. -/
theorem sumsq_apply (v : FVec Ideal S1024x1024 .f32) (y : Fin 1024) :
    multiReduction .add [1] S1024 (mulf v v) 0x00000000#32 reduces_S1024x1024_S1024 (.inl rfl) rfl (ix1 y)
      = ∑ k : Fin 1024, v (ix2 y k) * v (ix2 y k) := by
  refine (Ideal.multiReduction_add_single (mulf v v) 0x00000000#32 reduces_S1024x1024_S1024 _ _ (ix1 y)).trans ?_
  refine Finset.sum_congr rfl fun k _ => ?_
  have e : reduces_S1024x1024_S1024.lift (ix1 y) k = ix2 y k :=
    funext fun a => Fin.ext (by match a with | ⟨0, _⟩ => rfl | ⟨1, _⟩ => rfl)
  rw [e]
  rfl

/-- The factor each element of a block is multiplied by: the reciprocal norm of its row, as a column repeated
    along the columns. -/
theorem rownorm_apply (v : FVec Ideal S1024x1024 .f32) (y c : Fin 1024) :
    broadcastTo S1024x1024
        (divf (broadcast S1024x1 (Scalar.ofBits (F := Ideal) .f32 0x3F800000#32))
          (sqrt (shapeCast S1024x1
            (multiReduction .add [1] S1024 (mulf v v) 0x00000000#32 reduces_S1024x1024_S1024 (.inl rfl) rfl)
            shapeCasts_S1024_S1024x1)))
        broadcasts_S1024x1_S1024x1024 (ix2 y c)
      = rnormOf (fun k => v (ix2 y k)) := by
  refine (broadcastTo_a1_ab_apply _ _ y c).trans ?_
  unfold rnormOf
  refine congrArg (fun t => Ideal.div (Ideal.ofBits .f32 0x3F800000#32) (Ideal.sqrt t)) ?_
  refine (shapeCast_a_a1_apply _ _ y 0).trans ?_
  exact sumsq_apply v y

end Cert.KernelIdeal.KValue

end
-- ==== Proof.KMatmul.lean ====
/-
  The two matrix products of the kernels read at an element.

  Both multiply square blocks of side 1024 into a zero accumulator. One contracts the ROWS of both
  operands: its element (a, b) is the sum over y of lhs[y, a] · rhs[y, b]. The other is the plain
  product: its element (a, b) is the sum over k of lhs[a, k] · rhs[k, b].
-/
import proofs.«135818_j22402549416655_2_alg».proof.Proof.Gen.KernelIdeal.Skeleton
import Idealize.ShloMosaic.PureOps.Ideal.Laws
import Idealize.ShloMosaic.Lib.ValueIdx

noncomputable section

open scoped BigOperators

namespace Cert.KernelIdeal.KValue

open Idealize.ShloMosaic Idealize.ShloMosaic.ValueIdx Cert.KernelIdeal Cert.KernelIdeal.Gen

/-! The operand indices of the product that contracts the rows of both operands. -/

theorem lhsT_1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem lhsT_0 (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem rhsT_0 (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem rhsT_1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl

/-! The operand indices of the plain product. -/

theorem lhsN_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsN_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsN_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsN_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product contracting the rows of both operands, into the zero accumulator, at (a, b). -/
theorem matmulT_apply {φ₁ φ₂ : FTy} (L : FVec Ideal S1024x1024 φ₁) (R : FVec Ideal S1024x1024 φ₂) (a b : Fin 1024) :
    matmul dot_S1024x1024_S1024x1024_S1024x1024_0_0_1_1_n_n none L R (constant (F := Ideal) S1024x1024 .f32 0x00000000#32) (ix2 a b)
      = ∑ y : Fin 1024, L (ix2 y a) * R (ix2 y b) := by
  show FloatOps.matmul dot_S1024x1024_S1024x1024_S1024x1024_0_0_1_1_n_n none L R (constant (F := Ideal) S1024x1024 .f32 0x00000000#32) (ix2 a b) = _
  rw [Ideal.matmul_constant_zero_apply, ← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 a b) ((contrEquiv1 dot_S1024x1024_S1024x1024_S1024x1024_0_0_1_1_n_n 1024 rfl rfl).symm k) = ix2 k a :=
    funext fun c => Fin.ext (by
      match c with
      | ⟨0, _⟩ => exact (lhsT_0 _ _).trans hk
      | ⟨1, _⟩ => exact lhsT_1 _ _)
  have er : dot_S1024x1024_S1024x1024_S1024x1024_0_0_1_1_n_n.rhsIdx (ix2 a b) ((contrEquiv1 dot_S1024x1024_S1024x1024_S1024x1024_0_0_1_1_n_n 1024 rfl rfl).symm k) = ix2 k b :=
    funext fun c => Fin.ext (by
      match c with
      | ⟨0, _⟩ => exact (rhsT_0 _ _).trans hk
      | ⟨1, _⟩ => exact rhsT_1 _ _)
  rw [el, er]

/-- The plain product, into the zero accumulator, at (a, b). -/
theorem matmulN_apply {φ₁ φ₂ : FTy} (L : FVec Ideal S1024x1024 φ₁) (R : FVec Ideal S1024x1024 φ₂) (a b : Fin 1024) :
    matmul dot_S1024x1024_S1024x1024_S1024x1024_1_0_0_1_n_n none L R (constant (F := Ideal) S1024x1024 .f32 0x00000000#32) (ix2 a b)
      = ∑ k : Fin 1024, L (ix2 a k) * R (ix2 k b) := by
  show FloatOps.matmul dot_S1024x1024_S1024x1024_S1024x1024_1_0_0_1_n_n none L R (constant (F := Ideal) S1024x1024 .f32 0x00000000#32) (ix2 a b) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 a b) ((contrEquiv1 dot_S1024x1024_S1024x1024_S1024x1024_1_0_0_1_n_n 1024 rfl rfl).symm k) = ix2 a k :=
    funext fun c => Fin.ext (by
      match c with
      | ⟨0, _⟩ => exact lhsN_0 _ _
      | ⟨1, _⟩ => exact (lhsN_1 _ _).trans hk)
  have er : dot_S1024x1024_S1024x1024_S1024x1024_1_0_0_1_n_n.rhsIdx (ix2 a b) ((contrEquiv1 dot_S1024x1024_S1024x1024_S1024x1024_1_0_0_1_n_n 1024 rfl rfl).symm k) = ix2 k b :=
    funext fun c => Fin.ext (by
      match c with
      | ⟨0, _⟩ => exact (rhsN_0 _ _).trans hk
      | ⟨1, _⟩ => exact rhsN_1 _ _)
  rw [el, er]

end Cert.KernelIdeal.KValue

end
-- ==== Proof.PayloadGram.lean ====
/-
  The first kernel's three stored values read at an element.

  The zero fill is zero everywhere. The accumulation step adds to the accumulator, at (a, b), the sum over
  the 1024 rows y of the block of (block[y, a] · the reciprocal norm of row y) · block[y, b]. The final
  reshape to a leading unit axis keeps every element.
-/
import proofs.«135818_j22402549416655_2_alg».proof.Proof.KLayout
import proofs.«135818_j22402549416655_2_alg».proof.Proof.KMatmul

noncomputable section

open scoped BigOperators

namespace Cert.KernelIdeal.KValue

open Idealize.ShloMosaic Idealize.ShloMosaic.ValueIdx Cert.KernelIdeal Cert.KernelIdeal.Gen

/-- The product (normalized block)ᵀ · block at (a, b): the sum over the rows y of the block. -/
def blockGram (v : (⟨2, ![1024, 1024]⟩ : Shape).Idx → EReal) (a b : Fin 1024) : EReal :=
  ∑ y : Fin 1024, (v (ix2 y a) * rnormOf (fun k => v (ix2 y k))) * v (ix2 y b)

/-- The zero fill is zero at every element. -/
theorem k0_pay1_apply (j : S1024x1024.Idx) : k0_pay1 (F := Ideal) j = 0 := by
  unfold k0_pay1
  refine (congrFun (shapeCast_self _ _) j).trans ?_
  exact Ideal.ofBits_zero_f32

/-- A normalized block at (y, a): the element times the reciprocal norm of its row. -/
theorem normalized_apply (v : FVec Ideal S1024x1024 .f32) (y a : Fin 1024) :
    mulf v (broadcastTo S1024x1024
        (divf (broadcast S1024x1 (Scalar.ofBits (F := Ideal) .f32 0x3F800000#32))
          (sqrt (shapeCast S1024x1
            (multiReduction .add [1] S1024 (mulf v v) 0x00000000#32 reduces_S1024x1024_S1024 (.inl rfl) rfl)
            shapeCasts_S1024_S1024x1)))
        broadcasts_S1024x1_S1024x1024) (ix2 y a)
      = v (ix2 y a) * rnormOf (fun k => v (ix2 y k)) :=
  (mulf_apply _ _ _).trans (congrArg (v (ix2 y a) * ·) (rownorm_apply v y a))

/-- The accumulation step at (a, b): the accumulator there plus the block's product. -/
theorem k0_pay2_apply (v3 v14 : FVec Ideal S1024x1024 .f32) (a b : Fin 1024) :
    k0_pay2 v3 v14 (ix2 a b) = v14 (ix2 a b) + blockGram v3 a b := by
  unfold k0_pay2
  refine (congrFun (shapeCast_self _ _) (ix2 a b)).trans ?_
  refine (addf_apply _ _ _).trans ?_
  refine congrArg (v14 (ix2 a b) + ·) ?_
  refine (matmulT_apply _ _ a b).trans ?_
  unfold blockGram
  refine Finset.sum_congr rfl fun y _ => ?_
  refine congrArg₂ (· * ·) ?_ rfl
  exact (truncf_apply (φ := .f32) (ψ := .bf16) _ bitsLt_bf16_f32 _).trans (normalized_apply v3 y a)

/-- The reshape to a leading unit axis at (u, a, b): the operand at (a, b). -/
theorem k0_pay3_apply (v23 : FVec Ideal S1024x1024 .f32) (u : Fin 1) (a b : Fin 1024) :
    k0_pay3 v23 (ix3 u a b) = v23 (ix2 a b) := by
  unfold k0_pay3
  exact shapeCast_ab_1ab_apply v23 _ u a b

end Cert.KernelIdeal.KValue

end
-- ==== Proof.GramSum.lean ====
/-
  The Gram matrix of the kernel read at an element.

  The first kernel's accumulator, after the fourth block of a group, holds zero plus the four blocks'
  products; the host adds the two groups' totals to the zero constant. A block's product at (a, b) is the
  sum, over its 1024 rows, of (x[r, a] · the reciprocal norm of row r) · x[r, b], where r is the row of x
  that the block's row is; the eight blocks partition the 8192 rows. So the Gram matrix at (a, b) is the sum
  of that term over all rows of x.
-/
import proofs.«135818_j22402549416655_2_alg».proof.Proof.PayloadGram
import proofs.«135818_j22402549416655_2_alg».proof.Proof.Spec

noncomputable section

open scoped BigOperators

namespace Cert.KernelIdeal.KValue

open Idealize.ShloMosaic Idealize.ShloMosaic.ValueIdx Cert.KernelIdeal Cert.KernelIdeal.Gen Cert.KernelIdeal.Spec

/-- A sum over 8192 rows is the sum over eight blocks of the sums over each block's 1024 rows. -/
theorem sum_rows {M : Type*} [AddCommMonoid M] (f : Fin 8192 → M) :
    ∑ r : Fin 8192, f r
      = ∑ n : Fin 8, ∑ y : Fin 1024, f ⟨1024 * n.val + y.val, by have := n.isLt; have := y.isLt; omega⟩ := by
  rw [← Equiv.sum_comp (finProdFinEquiv : Fin 8 × Fin 1024 ≃ Fin 8192) f, Fintype.sum_prod_type]
  refine Finset.sum_congr rfl fun n _ => Finset.sum_congr rfl fun y _ => congrArg f (Fin.ext ?_)
  show y.val + 1024 * n.val = 1024 * n.val + y.val
  omega

/-- Row `r` of `x`'s term of the Gram matrix at (a, b). -/
def rowTerm (x : (⟨2, ![8192, 1024]⟩ : Shape).Idx → EReal) (a b : Fin 1024) (r : Fin 8192) : EReal :=
  (x (ix2 r a) * rnormOf (fun k => x (ix2 r k))) * x (ix2 r b)

/-- The product of block `n` of `x` is the sum of the terms of its rows. -/
theorem blockGram_rowBlock (x : Vec Ideal S8192x1024 .f32) (n : Fin 8) (a b : Fin 1024) :
    blockGram (rowBlock x n) a b
      = ∑ y : Fin 1024, rowTerm x a b ⟨1024 * n.val + y.val, by have := n.isLt; have := y.isLt; omega⟩ :=
  Finset.sum_congr rfl fun y _ => rfl

/-- The accumulator after the first block. -/
theorem gramAcc_zero_apply (blk : ℕ → Vec Ideal S1024x1024 .f32) (a b : Fin 1024) :
    gramAcc blk 0 (ix2 a b) = 0 + blockGram (blk 0) a b := by
  show k0_pay2 (blk 0) (k0_pay1 (F := Ideal)) (ix2 a b) = _
  refine (k0_pay2_apply _ _ a b).trans ?_
  exact congrArg (· + blockGram (blk 0) a b) (k0_pay1_apply _)

/-- The accumulator after a later block: zero at the first block of a group, else the accumulator before,
    plus the block's product. -/
theorem gramAcc_succ_apply (blk : ℕ → Vec Ideal S1024x1024 .f32) (n : ℕ) (a b : Fin 1024) :
    gramAcc blk (n + 1) (ix2 a b)
      = (if (n + 1) % 4 = 0 then 0 else gramAcc blk n (ix2 a b)) + blockGram (blk (n + 1)) a b := by
  show k0_pay2 (blk (n + 1)) (if (n + 1) % 4 = 0 then k0_pay1 (F := Ideal) else gramAcc blk n) (ix2 a b) = _
  refine (k0_pay2_apply _ _ a b).trans ?_
  refine congrArg (· + blockGram (blk (n + 1)) a b) ?_
  by_cases h : (n + 1) % 4 = 0
  · rw [if_pos h, if_pos h]; exact k0_pay1_apply _
  · rw [if_neg h, if_neg h]

/-- The first group's total. -/
theorem gramAcc_three (blk : ℕ → Vec Ideal S1024x1024 .f32) (a b : Fin 1024) :
    gramAcc blk 3 (ix2 a b)
      = 0 + blockGram (blk 0) a b + blockGram (blk 1) a b + blockGram (blk 2) a b + blockGram (blk 3) a b := by
  refine (gramAcc_succ_apply blk 2 a b).trans ?_
  rw [if_neg (by decide)]
  refine congrArg (· + blockGram (blk 3) a b) ?_
  refine (gramAcc_succ_apply blk 1 a b).trans ?_
  rw [if_neg (by decide)]
  refine congrArg (· + blockGram (blk 2) a b) ?_
  refine (gramAcc_succ_apply blk 0 a b).trans ?_
  rw [if_neg (by decide)]
  exact congrArg (· + blockGram (blk 1) a b) (gramAcc_zero_apply blk a b)

/-- The second group's total. -/
theorem gramAcc_seven (blk : ℕ → Vec Ideal S1024x1024 .f32) (a b : Fin 1024) :
    gramAcc blk 7 (ix2 a b)
      = 0 + blockGram (blk 4) a b + blockGram (blk 5) a b + blockGram (blk 6) a b + blockGram (blk 7) a b := by
  refine (gramAcc_succ_apply blk 6 a b).trans ?_
  rw [if_neg (by decide)]
  refine congrArg (· + blockGram (blk 7) a b) ?_
  refine (gramAcc_succ_apply blk 5 a b).trans ?_
  rw [if_neg (by decide)]
  refine congrArg (· + blockGram (blk 6) a b) ?_
  refine (gramAcc_succ_apply blk 4 a b).trans ?_
  rw [if_neg (by decide)]
  refine congrArg (· + blockGram (blk 5) a b) ?_
  refine (gramAcc_succ_apply blk 3 a b).trans ?_
  rw [if_pos (by decide)]

/-- A group's partial Gram matrix at (g, a, b) is the accumulator after the group's fourth block at (a, b). -/
theorem partials_apply (x : Vec Ideal S8192x1024 .f32) (g : Fin 2) (a b : Fin 1024) :
    partials x (ix3 g a b) = gramAcc (blocksOf x) (4 * g.val + 3) (ix2 a b) :=
  k0_pay3_apply _ 0 a b

/-- The host's sum of a stack of two arrays over the leading axis, from the zero constant, at (a, b). -/
theorem hostSum2_apply (Q : FVec Ideal S2x1024x1024 .f32) (a b : Fin 1024) :
    Host.reduceAdd (F := Ideal) Q (constant (F := Ideal) S_ .f32 0x00000000#32)
        reducesTo_S2x1024x1024_S1024x1024_d0 h_S_ (ix2 a b)
      = Q (ix3 (0 : Fin 2) a b) + Q (ix3 (1 : Fin 2) a b) := by
  have hred : S2x1024x1024.Reduces [0] S1024x1024 := by decide
  simp only [Host.reduceAdd, Ideal.hostReduceAdd_def]
  rw [Ideal.hostReduceAdd_single reducesTo_S2x1024x1024_S1024x1024_d0 hred]
  show Ideal.ofBits .f32 0x00000000#32 + ∑ k : Fin 2, Q (hred.lift (ix2 a b) k) = _
  rw [Ideal.ofBits_zero_f32, zero_add, Fin.sum_univ_two]
  refine congrArg₂ (· + ·) (congrArg Q ?_) (congrArg Q ?_) <;>
    exact funext fun c => Fin.ext (by match c with | ⟨0, _⟩ => rfl | ⟨1, _⟩ => rfl | ⟨2, _⟩ => rfl)

/-- The Gram matrix at (a, b): the sum over all rows of `x` of the row's term. -/
theorem gram_apply (x : Vec Ideal S8192x1024 .f32) (a b : Fin 1024) :
    gram x (ix2 a b) = ∑ r : Fin 8192, rowTerm x a b r := by
  have hL : gram x (ix2 a b)
      = (0 + blockGram (rowBlock x 0) a b + blockGram (rowBlock x 1) a b + blockGram (rowBlock x 2) a b
            + blockGram (rowBlock x 3) a b)
        + (0 + blockGram (rowBlock x 4) a b + blockGram (rowBlock x 5) a b + blockGram (rowBlock x 6) a b
            + blockGram (rowBlock x 7) a b) := by
    unfold gram
    refine (hostSum2_apply (partials x) a b).trans ?_
    refine congrArg₂ (· + ·) ?_ ?_
    · exact (partials_apply x 0 a b).trans (gramAcc_three (blocksOf x) a b)
    · exact (partials_apply x 1 a b).trans (gramAcc_seven (blocksOf x) a b)
  have hR : ∑ r : Fin 8192, rowTerm x a b r
      = blockGram (rowBlock x 0) a b + blockGram (rowBlock x 1) a b + blockGram (rowBlock x 2) a b
          + blockGram (rowBlock x 3) a b + blockGram (rowBlock x 4) a b + blockGram (rowBlock x 5) a b
          + blockGram (rowBlock x 6) a b + blockGram (rowBlock x 7) a b := by
    rw [sum_rows]
    refine (Finset.sum_congr rfl fun n _ => (blockGram_rowBlock x n a b).symm).trans ?_
    exact Fin.sum_univ_eight _
  rw [hL, hR]
  simp only [zero_add, add_assoc]

end Cert.KernelIdeal.KValue

end
-- ==== Proof.PayloadCore.lean ====
/-
  The second kernel's stored value read at an element: at (a, b), the sum over k of
  (the sum over l of q[a, l] · gram[l, k]) · p[k, b], times the word 0x39000000.
-/
import proofs.«135818_j22402549416655_2_alg».proof.Proof.KMatmul
import Idealize.ShloMosaic.Lib.ValueLayout

noncomputable section

open scoped BigOperators

namespace Cert.KernelIdeal.KValue

open Idealize.ShloMosaic Idealize.ShloMosaic.ValueIdx Cert.KernelIdeal Cert.KernelIdeal.Gen

/-- The second kernel's stored value at (a, b); `v0` is the Gram matrix, `v3` is `q`, `v5` is `p`. -/
theorem k1_pay1_apply (v0 v3 v5 : FVec Ideal S1024x1024 .f32) (a b : Fin 1024) :
    (k1_pay1 (F := Ideal) v0 v3 v5 (ix2 a b) : EReal)
      = (∑ k : Fin 1024, (∑ l : Fin 1024, v3 (ix2 a l) * v0 (ix2 l k)) * v5 (ix2 k b))
          * Ideal.ofBits .f32 0x39000000#32 := by
  unfold k1_pay1
  refine (truncf_apply (φ := .f32) (ψ := .bf16) _ bitsLt_bf16_f32 _).trans ?_
  refine (mulf_apply _ _ _).trans ?_
  refine congrArg (· * Ideal.ofBits .f32 0x39000000#32) ?_
  refine (matmulN_apply _ _ a b).trans ?_
  refine Finset.sum_congr rfl fun k _ => ?_
  refine congrArg₂ (· * ·) ?_ rfl
  refine (truncf_apply (φ := .f32) (ψ := .bf16) _ bitsLt_bf16_f32 _).trans ?_
  refine (matmulN_apply _ _ a k).trans ?_
  refine Finset.sum_congr rfl fun l _ => ?_
  refine congrArg₂ (· * ·) rfl ?_
  refine (truncf_apply (φ := .f32) (ψ := .bf16) _ bitsLt_bf16_f32 _).trans ?_
  exact congrFun (shapeCast_self v0 _) (ix2 l k)

end Cert.KernelIdeal.KValue

end
-- ==== Proof.PayloadFinal.lean ====
/-
  The third kernel's stored value read at an element: at (y, b), the sum over k of
  (block[y, k] · the reciprocal norm of row y) · core[k, b], plus block[y, b].
-/
import proofs.«135818_j22402549416655_2_alg».proof.Proof.KLayout
import proofs.«135818_j22402549416655_2_alg».proof.Proof.KMatmul

noncomputable section

open scoped BigOperators

namespace Cert.KernelIdeal.KValue

open Idealize.ShloMosaic Idealize.ShloMosaic.ValueIdx Cert.KernelIdeal Cert.KernelIdeal.Gen

/-- The third kernel's stored value at (y, b); `v0` is the block of rows, `v10` the core matrix. -/
theorem k2_pay1_apply (v0 : FVec Ideal S1024x1024 .f32) (v10 : FVec Ideal S1024x1024 .bf16) (y b : Fin 1024) :
    k2_pay1 v0 v10 (ix2 y b)
      = (∑ k : Fin 1024, (v0 (ix2 y k) * rnormOf (fun c => v0 (ix2 y c))) * v10 (ix2 k b)) + v0 (ix2 y b) := by
  unfold k2_pay1
  refine (addf_apply _ _ _).trans ?_
  refine congrArg (· + v0 (ix2 y b)) ?_
  refine (matmulN_apply _ _ y b).trans ?_
  refine Finset.sum_congr rfl fun k _ => ?_
  refine congrArg₂ (· * ·) ?_ ?_
  · refine (truncf_apply (φ := .f32) (ψ := .bf16) _ bitsLt_bf16_f32 _).trans ?_
    refine (mulf_apply _ _ _).trans ?_
    exact congrArg (v0 (ix2 y k) * ·) (rownorm_apply v0 y k)
  · exact congrFun (shapeCast_self v10 _) (ix2 k b)

end Cert.KernelIdeal.KValue

end
-- ==== Proof.MathSpec.lean ====
/-
  The common closed form of the two programs, as one function of the three argument arrays.

  With x an array of 8192 rows and 1024 columns and q, p square arrays of side 1024, over the
  extended reals:
    sumsq r   = 0 + Σ_k x[r,k] · x[r,k]
    nrm r     = 1 / sqrt (sumsq r)
    xn[r,k]   = x[r,k] · nrm r
    gram[a,b] = Σ_r xn[r,a] · x[r,b]
    tmp[a,b]  = Σ_k q[a,k] · gram[k,b]
    core[a,b] = Σ_k tmp[a,k] · p[k,b]
    out[r,b]  = (Σ_k xn[r,k] · core[k,b]) / 8192 + x[r,b]
  The constants 0, 1 and 8192 are kept as the binary32 words that denote them; the quotient is the
  extended reals' division with its conventions at zero and at the infinities.
-/
import Idealize.ShloMosaic.PureOps.Ideal
import Idealize.ShloMosaic.Lib.ValueIdx

noncomputable section

open scoped BigOperators

namespace Cert.Math

open Idealize.ShloMosaic Idealize.ShloMosaic.ValueIdx

/-- The sum of the squares of row `r`, from the zero word. -/
def sumsq (x : (⟨2, ![8192, 1024]⟩ : Shape).Idx → EReal) (r : Fin 8192) : EReal :=
  Ideal.ofBits .f32 0x00000000#32 + ∑ k : Fin 1024, x (ix2 r k) * x (ix2 r k)

/-- The reciprocal of the Euclidean norm of row `r`: the word of one divided by the square root of the sum of squares. -/
def nrm (x : (⟨2, ![8192, 1024]⟩ : Shape).Idx → EReal) (r : Fin 8192) : EReal :=
  Ideal.div (Ideal.ofBits .f32 0x3F800000#32) (Ideal.sqrt (sumsq x r))

/-- The normalized array: each element times the reciprocal norm of its row. -/
def xn (x : (⟨2, ![8192, 1024]⟩ : Shape).Idx → EReal) (r : Fin 8192) (k : Fin 1024) : EReal :=
  x (ix2 r k) * nrm x r

/-- The Gram matrix of the normalized array against the array: the sum over all 8192 rows. -/
def gramG (x : (⟨2, ![8192, 1024]⟩ : Shape).Idx → EReal) (a b : Fin 1024) : EReal :=
  ∑ r : Fin 8192, xn x r a * x (ix2 r b)

/-- `q` times the Gram matrix. -/
def tmpG (x : (⟨2, ![8192, 1024]⟩ : Shape).Idx → EReal) (q : (⟨2, ![1024, 1024]⟩ : Shape).Idx → EReal)
    (a b : Fin 1024) : EReal :=
  ∑ k : Fin 1024, q (ix2 a k) * gramG x k b

/-- `q` times the Gram matrix times `p`. -/
def coreG (x : (⟨2, ![8192, 1024]⟩ : Shape).Idx → EReal) (q p : (⟨2, ![1024, 1024]⟩ : Shape).Idx → EReal)
    (a b : Fin 1024) : EReal :=
  ∑ k : Fin 1024, tmpG x q a k * p (ix2 k b)

/-- The result at row `r`, column `b`: the normalized row against the core's column, divided by the word of 8192,
    plus the array's own element. -/
def outG (x : (⟨2, ![8192, 1024]⟩ : Shape).Idx → EReal) (q p : (⟨2, ![1024, 1024]⟩ : Shape).Idx → EReal)
    (r : Fin 8192) (b : Fin 1024) : EReal :=
  Ideal.div (∑ k : Fin 1024, xn x r k * coreG x q p k b) (Ideal.ofBits .f32 0x46000000#32) + x (ix2 r b)

/-- The result as one array. -/
def G (x : (⟨2, ![8192, 1024]⟩ : Shape).Idx → EReal) (q p : (⟨2, ![1024, 1024]⟩ : Shape).Idx → EReal) :
    (⟨2, ![8192, 1024]⟩ : Shape).Idx → EReal :=
  fun i => outG x q p ⟨(i 0).val, idx2_lt0 i⟩ ⟨(i 1).val, idx2_lt1 i⟩

/-- The result array at the index of coordinates `r`, `b`. -/
theorem G_ix2 (x : (⟨2, ![8192, 1024]⟩ : Shape).Idx → EReal) (q p : (⟨2, ![1024, 1024]⟩ : Shape).Idx → EReal)
    (r : Fin 8192) (b : Fin 1024) : G x q p (ix2 r b) = outG x q p r b := rfl

end Cert.Math

end
-- ==== Proof.ScaleLaw.lean ====
/-
  The algebraic law between the two arrangements, on the extended reals.

  Addition and multiplication of extended reals are commutative and associative, and zero is neutral
  for addition, so sums may be regrouped freely. Multiplication does not distribute over addition in
  general (at opposite infinities it fails), but multiplication by a nonnegative REAL constant does:
  this is the only distributive step used, at the constant 2⁻¹³ = 1/8192. Division by the word of
  8192 is multiplication by 1/8192, at the infinities too. Last, a sum over 8192 consecutive rows is
  the sum over two groups of four blocks of 1024 rows.
-/
import Idealize.ShloMosaic.PureOps.Ideal

noncomputable section

open scoped BigOperators

namespace Cert.Math

open Idealize.ShloMosaic

/-! ## Multiplication by a nonnegative real constant distributes over sums -/

/-- `(a + b) · c = a · c + b · c` for a nonnegative real `c`, at every pair of extended reals. -/
theorem add_mul_coe_of_nonneg (a b : EReal) {c : ℝ} (hc : 0 ≤ c) :
    (a + b) * (c : EReal) = a * (c : EReal) + b * (c : EReal) :=
  EReal.right_distrib_of_nonneg_of_ne_top (EReal.coe_nonneg.mpr hc) (EReal.coe_ne_top c) a b

/-- `(Σ f) · c = Σ (f · c)` for a nonnegative real `c`. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => rw [Finset.sum_empty, Finset.sum_empty, zero_mul]
  | insert a s ha ih => rw [Finset.sum_insert ha, Finset.sum_insert ha, add_mul_coe_of_nonneg _ _ hc, ih]

/-- `Σ_k a k · (b k · c) = (Σ_k a k · b k) · c` for a nonnegative real `c`. -/
theorem sum_mul_mul_coe {ι : Type*} (s : Finset ι) (a b : ι → EReal) {c : ℝ} (hc : 0 ≤ c) :
    ∑ k ∈ s, a k * (b k * (c : EReal)) = (∑ k ∈ s, a k * b k) * (c : EReal) := by
  rw [sum_mul_coe_of_nonneg s _ hc]
  exact Finset.sum_congr rfl fun k _ => (mul_assoc _ _ _).symm

/-! ## The two constants -/

/-- The binary32 word `0x46000000` denotes 8192 = 2¹³. -/
theorem ofBits_8192 : Ideal.ofBits .f32 0x46000000#32 = ((8192 : ℝ) : EReal) := by
  simp [Ideal.ofBits, Ideal.ieee, -EReal.coe_mul]; norm_num

/-- The binary32 word `0x39000000` denotes 1/8192 = 2⁻¹³. -/
theorem ofBits_inv_8192 : Ideal.ofBits .f32 0x39000000#32 = ((1 / 8192 : ℝ) : EReal) := by
  simp [Ideal.ofBits, Ideal.ieee, -EReal.coe_mul]; norm_num

/-- Division by the word of 8192 is multiplication by 1/8192, at every extended real. -/
theorem div_8192 (s : EReal) :
    Ideal.div s (Ideal.ofBits .f32 0x46000000#32) = s * ((1 / 8192 : ℝ) : EReal) := by
  rw [ofBits_8192, Ideal.div_coe (by norm_num)]

/-- Division by the word of 8192 is multiplication by the word of 2⁻¹³. -/
theorem div_8192_eq_mul_word (s : EReal) :
    Ideal.div s (Ideal.ofBits .f32 0x46000000#32) = s * Ideal.ofBits .f32 0x39000000#32 := by
  rw [div_8192, ofBits_inv_8192]

/-- The scaled arrangement against the divided one: a sum of products whose second factors each carry the word of
    2⁻¹³ is the plain sum of products divided by the word of 8192. -/
theorem sum_mul_scaled_eq_div {ι : Type*} (s : Finset ι) (a b : ι → EReal) :
    ∑ k ∈ s, a k * (b k * Ideal.ofBits .f32 0x39000000#32)
      = Ideal.div (∑ k ∈ s, a k * b k) (Ideal.ofBits .f32 0x46000000#32) := by
  rw [div_8192, ofBits_inv_8192]
  exact sum_mul_mul_coe s a b (by norm_num)

/-! ## Regrouping the rows -/

section Regroup
variable {M : Type*} [AddCommMonoid M]

/-- A sum over `m` consecutive blocks of `n` naturals is the sum over the first `m · n` naturals. -/
theorem sum_range_blocks (f : ℕ → M) (n : ℕ) :
    ∀ m : ℕ, ∑ i ∈ Finset.range m, ∑ j ∈ Finset.range n, f (n * i + j) = ∑ r ∈ Finset.range (m * n), f r
  | 0 => by rw [Finset.sum_range_zero, Nat.zero_mul, Finset.sum_range_zero]
  | m + 1 => by
    rw [Finset.sum_range_succ, sum_range_blocks f n m, Nat.succ_mul, Finset.sum_range_add, Nat.mul_comm n m]

/-- The 8192 rows as two groups of four blocks of 1024: for a function of the row number. -/
theorem sum_rows_regroup (f : ℕ → M) :
    ∑ g : Fin 2, ∑ j : Fin 4, ∑ y : Fin 1024, f (1024 * (4 * g.val + j.val) + y.val) = ∑ r : Fin 8192, f r.val := by
  have hy : ∀ t : ℕ, ∑ y : Fin 1024, f (1024 * t + y.val) = ∑ y ∈ Finset.range 1024, f (1024 * t + y) :=
    fun t => Fin.sum_univ_eq_sum_range (fun y => f (1024 * t + y)) 1024
  have hj : ∀ g : ℕ, ∑ j : Fin 4, ∑ y ∈ Finset.range 1024, f (1024 * (4 * g + j.val) + y)
      = ∑ j ∈ Finset.range 4, ∑ y ∈ Finset.range 1024, f (1024 * (4 * g + j) + y) :=
    fun g => Fin.sum_univ_eq_sum_range (fun j => ∑ y ∈ Finset.range 1024, f (1024 * (4 * g + j) + y)) 4
  have hg : ∑ g : Fin 2, ∑ j ∈ Finset.range 4, ∑ y ∈ Finset.range 1024, f (1024 * (4 * g.val + j) + y)
      = ∑ g ∈ Finset.range 2, ∑ j ∈ Finset.range 4, ∑ y ∈ Finset.range 1024, f (1024 * (4 * g + j) + y) :=
    Fin.sum_univ_eq_sum_range (fun g => ∑ j ∈ Finset.range 4, ∑ y ∈ Finset.range 1024, f (1024 * (4 * g + j) + y)) 2
  have e2 : ∑ g ∈ Finset.range 2, ∑ j ∈ Finset.range 4, ∑ y ∈ Finset.range 1024, f (1024 * (4 * g + j) + y)
      = ∑ t ∈ Finset.range 8, ∑ y ∈ Finset.range 1024, f (1024 * t + y) :=
    sum_range_blocks (fun t => ∑ y ∈ Finset.range 1024, f (1024 * t + y)) 4 2
  have e1 : ∑ t ∈ Finset.range 8, ∑ y ∈ Finset.range 1024, f (1024 * t + y) = ∑ r ∈ Finset.range 8192, f r :=
    sum_range_blocks f 1024 8
  simp only [hy, hj]
  rw [hg, e2, e1, Fin.sum_univ_eq_sum_range f 8192]

/-- The 8192 rows as eight blocks of 1024: for a function of the row number. -/
theorem sum_rows_blocks (f : ℕ → M) :
    ∑ t : Fin 8, ∑ y : Fin 1024, f (1024 * t.val + y.val) = ∑ r : Fin 8192, f r.val := by
  have hy : ∀ t : ℕ, ∑ y : Fin 1024, f (1024 * t + y.val) = ∑ y ∈ Finset.range 1024, f (1024 * t + y) :=
    fun t => Fin.sum_univ_eq_sum_range (fun y => f (1024 * t + y)) 1024
  have ht : ∑ t : Fin 8, ∑ y ∈ Finset.range 1024, f (1024 * t.val + y)
      = ∑ t ∈ Finset.range 8, ∑ y ∈ Finset.range 1024, f (1024 * t + y) :=
    Fin.sum_univ_eq_sum_range (fun t => ∑ y ∈ Finset.range 1024, f (1024 * t + y)) 8
  have e1 : ∑ t ∈ Finset.range 8, ∑ y ∈ Finset.range 1024, f (1024 * t + y) = ∑ r ∈ Finset.range 8192, f r :=
    sum_range_blocks f 1024 8
  simp only [hy]
  rw [ht, e1, Fin.sum_univ_eq_sum_range f 8192]

/-- The same for a function of the row as an element of `Fin 8192`. -/
theorem sum_rows_regroup_fin (F : Fin 8192 → M) :
    ∑ g : Fin 2, ∑ j : Fin 4, ∑ y : Fin 1024,
        F ⟨1024 * (4 * g.val + j.val) + y.val, by have := g.isLt; have := j.isLt; have := y.isLt; omega⟩
      = ∑ r : Fin 8192, F r := by
  have h := sum_rows_regroup (fun n => if h : n < 8192 then F ⟨n, h⟩ else 0)
  refine Eq.trans ?_ (h.trans (Finset.sum_congr rfl fun r _ => ?_))
  · refine Finset.sum_congr rfl fun g _ => Finset.sum_congr rfl fun j _ => Finset.sum_congr rfl fun y _ => ?_
    have hlt : 1024 * (4 * g.val + j.val) + y.val < 8192 := by
      have := g.isLt; have := j.isLt; have := y.isLt; omega
    rw [dif_pos hlt]
  · exact dif_pos r.isLt

/-- The eight-block form for a function of the row as an element of `Fin 8192`. -/
theorem sum_rows_blocks_fin (F : Fin 8192 → M) :
    ∑ t : Fin 8, ∑ y : Fin 1024, F ⟨1024 * t.val + y.val, by have := t.isLt; have := y.isLt; omega⟩
      = ∑ r : Fin 8192, F r := by
  have h := sum_rows_blocks (fun n => if h : n < 8192 then F ⟨n, h⟩ else 0)
  refine Eq.trans ?_ (h.trans (Finset.sum_congr rfl fun r _ => ?_))
  · refine Finset.sum_congr rfl fun t _ => Finset.sum_congr rfl fun y _ => ?_
    have hlt : 1024 * t.val + y.val < 8192 := by
      have := t.isLt; have := y.isLt; omega
    rw [dif_pos hlt]
  · exact dif_pos r.isLt

end Regroup

end Cert.Math

end
-- ==== Proof.KernelIsG.lean ====
/-
  The kernel's result is the common closed form.

  Row r of the result is row r mod 1024 of the third kernel's value on block r div 1024 of x, and that
  row of the block is row r of x. The core matrix the third kernel reads is the second kernel's value on
  the Gram matrix: q · gram · p, every element times the word of 2⁻¹³; the Gram matrix is the sum over all
  rows of x. So the result at (r, b) is the sum over k of xn[r, k] · (core[k, b] · 2⁻¹³), plus x[r, b];
  the scaled sum is the plain sum divided by the word of 8192, the one step that uses distributivity,
  of a nonnegative real constant.
-/
import proofs.«135818_j22402549416655_2_alg».proof.Proof.GramSum
import proofs.«135818_j22402549416655_2_alg».proof.Proof.PayloadCore
import proofs.«135818_j22402549416655_2_alg».proof.Proof.PayloadFinal
import proofs.«135818_j22402549416655_2_alg».proof.Proof.MathSpec
import proofs.«135818_j22402549416655_2_alg».proof.Proof.ScaleLaw

noncomputable section

open scoped BigOperators

namespace Cert.KernelIdeal.KValue

open Idealize.ShloMosaic Idealize.ShloMosaic.ValueIdx Cert.KernelIdeal Cert.KernelIdeal.Gen Cert.KernelIdeal.Spec

/-- The reciprocal norm of row `r` of `x`, in both spellings: the sum of squares from the zero word, or bare. -/
theorem nrm_eq (x : (⟨2, ![8192, 1024]⟩ : Shape).Idx → EReal) (r : Fin 8192) :
    Cert.Math.nrm x r = rnormOf (fun k => x (ix2 r k)) := by
  unfold Cert.Math.nrm Cert.Math.sumsq rnormOf
  rw [Ideal.ofBits_zero_f32, zero_add]

/-- The Gram matrix of the kernel is the closed form's. -/
theorem gram_at (x : FVec Ideal S8192x1024 .f32) (a b : Fin 1024) :
    Spec.gram (F := Ideal) x (ix2 a b) = Cert.Math.gramG x a b := by
  refine (gram_apply x a b).trans ?_
  unfold Cert.Math.gramG
  refine Finset.sum_congr rfl fun r _ => ?_
  unfold rowTerm Cert.Math.xn
  rw [nrm_eq]

/-- The core matrix of the kernel is the closed form's, every element times the word of 2⁻¹³. -/
theorem core_at (x : FVec Ideal S8192x1024 .f32) (q p : FVec Ideal S1024x1024 .f32) (a b : Fin 1024) :
    (Spec.core (F := Ideal) x q p (ix2 a b) : EReal)
      = Cert.Math.coreG x q p a b * Ideal.ofBits .f32 0x39000000#32 := by
  unfold Spec.core
  refine (k1_pay1_apply _ q p a b).trans ?_
  refine congrArg (· * Ideal.ofBits .f32 0x39000000#32) ?_
  unfold Cert.Math.coreG
  refine Finset.sum_congr rfl fun k _ => ?_
  refine congrArg (· * p (ix2 k b)) ?_
  unfold Cert.Math.tmpG
  refine Finset.sum_congr rfl fun l _ => ?_
  exact congrArg (q (ix2 a l) * ·) (gram_at x l k)

/-- Row `r mod 1024` of block `r div 1024` of `x` is row `r` of `x`. -/
theorem rowBlock_div_mod (x : FVec Ideal S8192x1024 .f32) (r : Fin 8192) (c : Fin 1024) :
    rowBlock (F := Ideal) x ⟨r.val / 1024, by have := r.isLt; omega⟩ (ix2 (⟨r.val % 1024, Nat.mod_lt _ (by decide)⟩ : Fin 1024) c)
      = x (ix2 r c) := by
  show x (ix2 (⟨1024 * (r.val / 1024) + r.val % 1024, _⟩ : Fin 8192) (⟨c.val, _⟩ : Fin 1024)) = _
  exact congrArg (fun t : Fin 8192 => x (ix2 t c)) (Fin.ext (Nat.div_add_mod r.val 1024))

/-- The kernel's result at (r, b). -/
theorem result_at (x : FVec Ideal S8192x1024 .f32) (q p : FVec Ideal S1024x1024 .f32) (r : Fin 8192) (b : Fin 1024) :
    Spec.result (F := Ideal) x q p (ix2 r b) = Cert.Math.outG x q p r b := by
  show k2_pay1 (rowBlock (F := Ideal) x ⟨r.val / 1024, _⟩) (Spec.core (F := Ideal) x q p)
      (ix2 (⟨r.val % 1024, _⟩ : Fin 1024) (⟨b.val, _⟩ : Fin 1024)) = _
  refine (k2_pay1_apply _ _ _ _).trans ?_
  unfold Cert.Math.outG
  refine congrArg₂ (· + ·) ?_ (rowBlock_div_mod x r b)
  refine Eq.trans ?_ (Cert.Math.sum_mul_scaled_eq_div Finset.univ (fun k => Cert.Math.xn x r k) (fun k => Cert.Math.coreG x q p k b))
  refine Finset.sum_congr rfl fun k _ => ?_
  refine congrArg₂ (· * ·) ?_ (core_at x q p k b)
  unfold Cert.Math.xn
  rw [nrm_eq]
  refine congrArg₂ (· * ·) (rowBlock_div_mod x r k) ?_
  exact congrArg rnormOf (funext fun c => rowBlock_div_mod x r c)

/-- The kernel's result, as one function of the three arrays, is the closed form. -/
theorem result_eq_G (x : FVec Ideal S8192x1024 .f32) (q p : FVec Ideal S1024x1024 .f32) :
    Cert.KernelIdeal.Spec.result (F := Ideal) x q p = Cert.Math.G x q p := by
  funext i
  obtain ⟨r, b, rfl⟩ : ∃ (r : Fin 8192) (b : Fin 1024), i = ix2 r b := ⟨i 0, i 1, eq_ix2 i⟩
  exact (result_at x q p r b).trans (Cert.Math.G_ix2 x q p r b).symm

end Cert.KernelIdeal.KValue

end
-- ==== Proof.RefIsG.lean ====
/-
  The reference program's result is the closed form.

  The reference's composed term, with the three argument arrays as variables, is read one stage at a
  time at an index of literal coordinates: the sum of squares of a row, the reciprocal norm, the
  normalized array, the Gram matrix (a sum over the 8192 rows), the two products with q and p, and the
  last product divided by 8192 plus the array. Each stage is the corresponding stage of the closed form.
-/
import proofs.«135818_j22402549416655_2_alg».proof.Proof.Gen.ReferenceIdeal.Read
import proofs.«135818_j22402549416655_2_alg».proof.Proof.MathSpec

noncomputable section

open scoped BigOperators

namespace Cert.ReferenceIdeal.RefValue

open Cert.ReferenceIdeal Cert.ReferenceIdeal.Gen Cert.ReferenceIdeal.Read Idealize.ShloMosaic Idealize.ShloMosaic.ValueIdx

section Term
variable {F : FTy → Type} [FloatOps F]

/-- The reference's result as the composed term of its operations over the three argument arrays. -/
def refTerm (x : (⟨S8192x1024, .f32⟩ : BufTy).Contents (Elt F)) (q p : (⟨S1024x1024, .f32⟩ : BufTy).Contents (Elt F)) :
    (⟨S8192x1024, .f32⟩ : BufTy).Contents (Elt F) :=
  addf (Host.divf (Host.dotGeneral dot_S8192x1024_S1024x1024_S8192x1024_1_0_0_1_n_n none (mulf (x) (broadcastInDim S8192x1024 ![0, 1] bcast_S8192x1_S8192x1024_0_1 (Host.divf (broadcastInDim S8192x1 ![] bcast_S_S8192x1 (constant S_ .f32 0x3F800000#32)) (Host.sqrt (broadcastInDim S8192x1 ![0] bcast_S8192_S8192x1_0 (Host.reduceAdd (mulf (x) (x)) (constant S_ .f32 0x00000000#32) reducesTo_S8192x1024_S8192_d1 h_S_)))))) (Host.dotGeneral dot_S1024x1024_S1024x1024_S1024x1024_1_0_0_1_n_n none (Host.dotGeneral dot_S1024x1024_S1024x1024_S1024x1024_1_0_0_1_n_n none (q) (Host.dotGeneral dot_S1024x8192_S8192x1024_S1024x1024_1_0_0_1_n_n none (transpose S1024x8192 [1, 0] (mulf (x) (broadcastInDim S8192x1024 ![0, 1] bcast_S8192x1_S8192x1024_0_1 (Host.divf (broadcastInDim S8192x1 ![] bcast_S_S8192x1 (constant S_ .f32 0x3F800000#32)) (Host.sqrt (broadcastInDim S8192x1 ![0] bcast_S8192_S8192x1_0 (Host.reduceAdd (mulf (x) (x)) (constant S_ .f32 0x00000000#32) reducesTo_S8192x1024_S8192_d1 h_S_)))))) transposes_S8192x1024_S1024x8192_1_0) (x))) (p))) (broadcastInDim S8192x1024 ![] bcast_S_S8192x1024 (constant S_ .f32 0x46000000#32))) (x)

/-- The composed term is the last stage of the stage-by-stage reading. -/
theorem refTerm_eq_val (x : (⟨S8192x1024, .f32⟩ : BufTy).Contents (Elt F)) (q p : (⟨S1024x1024, .f32⟩ : BufTy).Contents (Elt F)) :
    refTerm x q p = val_main_v12 (F := F) x q p := val_main_v12_eq x q p

end Term

/-- The row sum of squares. -/
theorem sumsq_at (x : (⟨S8192x1024, .f32⟩ : BufTy).Contents (Elt Ideal)) (r : Fin 8192) :
    val_main_call0_v1 (F := Ideal) x (ix1 r) = Cert.Math.sumsq x r := by
  rw [val_main_call0_v1_apply, val_main_call0_cst_apply]
  unfold Cert.Math.sumsq
  refine congrArg₂ (· + ·) (Ideal.ofBits_def _) (Finset.sum_congr rfl fun k _ => ?_)
  have e : idx_main_call0_v1 (ix1 r) k = ix2 r k :=
    funext fun a => Fin.ext (by match a with | ⟨0, _⟩ => rfl | ⟨1, _⟩ => rfl)
  rw [val_main_call0_v0_apply, e]
  rfl

/-- The reciprocal norm of a row. -/
theorem nrm_at (x : (⟨S8192x1024, .f32⟩ : BufTy).Contents (Elt Ideal)) (r : Fin 8192) :
    val_main_v2 (F := Ideal) x (ix2 r (0 : Fin 1)) = Cert.Math.nrm x r := by
  have e : idx_main_call0_v2 (ix2 r (0 : Fin 1)) = ix1 r :=
    funext fun a => Fin.ext (by match a with | ⟨0, _⟩ => rfl)
  rw [val_main_v2_apply, val_main_v1_apply, val_main_cst_apply, val_main_v0_apply, val_main_call0_v2_apply, e, sumsq_at]
  rfl

/-- The normalized array. -/
theorem xn_at (x : (⟨S8192x1024, .f32⟩ : BufTy).Contents (Elt Ideal)) (r : Fin 8192) (k : Fin 1024) :
    val_main_v4 (F := Ideal) x (ix2 r k) = Cert.Math.xn x r k := by
  have e : idx_main_v3 (ix2 r k) = ix2 r (0 : Fin 1) :=
    funext fun a => Fin.ext (by match a with | ⟨0, _⟩ => rfl | ⟨1, _⟩ => rfl)
  rw [val_main_v4_apply, val_main_v3_apply, e, nrm_at]
  rfl

/-- The Gram matrix. -/
theorem gram_at (x : (⟨S8192x1024, .f32⟩ : BufTy).Contents (Elt Ideal)) (a b : Fin 1024) :
    val_main_v6 (F := Ideal) x (ix2 a b) = Cert.Math.gramG x a b := by
  rw [val_main_v6_apply]
  unfold Cert.Math.gramG
  refine Finset.sum_congr rfl fun r _ => ?_
  have e1 : idx_main_v5 (lidx_main_v6 (ix2 a b) r) = ix2 r a :=
    funext fun c => Fin.ext (by match c with | ⟨0, _⟩ => rfl | ⟨1, _⟩ => rfl)
  have e2 : ridx_main_v6 (ix2 a b) r = ix2 r b :=
    funext fun c => Fin.ext (by match c with | ⟨0, _⟩ => rfl | ⟨1, _⟩ => rfl)
  rw [val_main_v5_apply, e1, e2, xn_at]

/-- The first product. -/
theorem tmp_at (x : (⟨S8192x1024, .f32⟩ : BufTy).Contents (Elt Ideal)) (q : (⟨S1024x1024, .f32⟩ : BufTy).Contents (Elt Ideal))
    (a b : Fin 1024) : val_main_v7 (F := Ideal) x q (ix2 a b) = Cert.Math.tmpG x q a b := by
  rw [val_main_v7_apply]
  unfold Cert.Math.tmpG
  refine Finset.sum_congr rfl fun k _ => ?_
  have e1 : lidx_main_v7 (ix2 a b) k = ix2 a k :=
    funext fun c => Fin.ext (by match c with | ⟨0, _⟩ => rfl | ⟨1, _⟩ => rfl)
  have e2 : ridx_main_v7 (ix2 a b) k = ix2 k b :=
    funext fun c => Fin.ext (by match c with | ⟨0, _⟩ => rfl | ⟨1, _⟩ => rfl)
  rw [e1, e2, gram_at]

/-- The second product. -/
theorem core_at (x : (⟨S8192x1024, .f32⟩ : BufTy).Contents (Elt Ideal)) (q p : (⟨S1024x1024, .f32⟩ : BufTy).Contents (Elt Ideal))
    (a b : Fin 1024) : val_main_v8 (F := Ideal) x q p (ix2 a b) = Cert.Math.coreG x q p a b := by
  rw [val_main_v8_apply]
  unfold Cert.Math.coreG
  refine Finset.sum_congr rfl fun k _ => ?_
  have e1 : lidx_main_v8 (ix2 a b) k = ix2 a k :=
    funext fun c => Fin.ext (by match c with | ⟨0, _⟩ => rfl | ⟨1, _⟩ => rfl)
  have e2 : ridx_main_v8 (ix2 a b) k = ix2 k b :=
    funext fun c => Fin.ext (by match c with | ⟨0, _⟩ => rfl | ⟨1, _⟩ => rfl)
  rw [e1, e2, tmp_at]

/-- The result at an index of coordinates `r`, `b`. -/
theorem out_at (x : (⟨S8192x1024, .f32⟩ : BufTy).Contents (Elt Ideal)) (q p : (⟨S1024x1024, .f32⟩ : BufTy).Contents (Elt Ideal))
    (r : Fin 8192) (b : Fin 1024) : val_main_v12 (F := Ideal) x q p (ix2 r b) = Cert.Math.outG x q p r b := by
  rw [val_main_v12_apply, val_main_v11_apply, val_main_v10_apply, val_main_cst_0_apply, val_main_v9_apply]
  unfold Cert.Math.outG
  refine congrArg₂ (· + ·) (congrArg₂ Ideal.div (Finset.sum_congr rfl fun k _ => ?_) (Ideal.ofBits_def _)) rfl
  have e1 : lidx_main_v9 (ix2 r b) k = ix2 r k :=
    funext fun c => Fin.ext (by match c with | ⟨0, _⟩ => rfl | ⟨1, _⟩ => rfl)
  have e2 : ridx_main_v9 (ix2 r b) k = ix2 k b :=
    funext fun c => Fin.ext (by match c with | ⟨0, _⟩ => rfl | ⟨1, _⟩ => rfl)
  rw [e1, e2, xn_at, core_at]

/-- The reference's composed term is the closed form. -/
theorem refTerm_eq_G (x : (⟨S8192x1024, .f32⟩ : BufTy).Contents (Elt Ideal)) (q p : (⟨S1024x1024, .f32⟩ : BufTy).Contents (Elt Ideal)) :
    refTerm (F := Ideal) x q p = Cert.Math.G x q p := by
  rw [refTerm_eq_val]
  funext i
  obtain ⟨r, b, rfl⟩ : ∃ (r : Fin 8192) (b : Fin 1024), i = ix2 r b := ⟨i 0, i 1, eq_ix2 i⟩
  rw [Cert.Math.G_ix2, out_at]

end Cert.ReferenceIdeal.RefValue

end
-- ==== Proof.RefRun.lean ====
/-
  The reference program's run, with its result stated as the closed form: every weakly fair execution
  terminates with the result array equal to the closed form of the three argument arrays as they were
  at the start, and the argument arrays unchanged.
-/
import proofs.«135818_j22402549416655_2_alg».proof.Proof.RefIsG

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The reference's run at the extended reals: the result is the closed form of the arguments, which are unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
          = Cert.Math.G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans (refTerm_eq_G (m ((c.tc : Thread nD τ).loc main_arg0))
        (m ((c.tc : Thread nD τ).loc main_arg1)) (m ((c.tc : Thread nD τ).loc main_arg2))), (h c).2⟩)
    (Cert.ReferenceIdeal.Value.run (F := Ideal) m ρ)

end Cert.ReferenceIdeal.RefValue

end
-- ==== Proof.RefClaims.lean ====
/-
  The reference program's two claims, from its run: it terminates with its argument arrays unchanged,
  and (for the comparison with the kernel) from a memory whose argument arrays are given arrays x, q, p
  its result is the closed form of x, q, p.
-/
import proofs.«135818_j22402549416655_2_alg».proof.Defs
import proofs.«135818_j22402549416655_2_alg».proof.Proof.RefRun
import proofs.«135818_j22402549416655_2_alg».proof.Proof.Gen.Pre_finite_inputs

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The reference runs and leaves its argument arrays unchanged. -/
theorem frame_holds :
    Cert.frame_ReferenceIdeal (hReferenceIdeal := Cert.ReferenceIdeal.Gen.facts)
      (hPre_finite_inputs := Cert.Pre_finite_inputs.Gen.facts) :=
  fun m g _ => (θ_run (Cert.ReferenceIdeal.defs (F := Ideal)) _ _).mono (fun _ h c => (h c).2)
    (Cert.ReferenceIdeal.Value.run (F := Ideal) m g)

/-- The reference's run from a memory whose argument arrays are `x c`, `q c`, `p c` on device `c`: the result is
    the closed form of those, and the argument arrays are unchanged. -/
theorem run_G_of_agree (m : (ℓ : Loc nD τ sig) → Buf (Elt Ideal) ℓ) (ρ : Dev nD → PrngReg)
    (x : Dev nD → (⟨S8192x1024, .f32⟩ : BufTy).Contents (Elt Ideal))
    (q p : Dev nD → (⟨S1024x1024, .f32⟩ : BufTy).Contents (Elt Ideal))
    (hagree : ∀ c : Dev nD, m ((c.tc : Thread nD τ).loc main_arg0) = x c
      ∧ m ((c.tc : Thread nD τ).loc main_arg1) = q c ∧ m ((c.tc : Thread nD τ).loc main_arg2) = p c) :
    θ_run (defs (F := Ideal)) (onTc (τ := τ) (main (F := Ideal))) ⟨m, fun _ => 0, ρ⟩ fun r => ∀ c : Dev nD,
      r.2.mem ((c.tc : Thread nD τ).loc main_v12) = Cert.Math.G (x c) (q c) (p c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨by rw [(h c).1, (hagree c).1, (hagree c).2.1, (hagree c).2.2], (h c).2⟩)
    (run_G m ρ)

end Cert.ReferenceIdeal.RefValue

end
-- ==== Proof.lean ====
/-
  The certificate of a three-kernel program against its plain reference, over the extended reals.

  The program normalizes the rows of `x` (8192 × 1024), forms the Gram matrix (normalized x)ᵀ · x by
  accumulating it over eight blocks of 1024 rows in two groups whose totals the host adds, forms
  `core = (q · gram · p) · 2⁻¹³`, and returns (normalized x) · core + x, block by block. The reference computes
  `((normalized x) · (q · gram · p)) / 8192 + x` in one piece. Over the extended reals the two agree at every
  input: sums may be regrouped (addition is commutative and associative, and adding zero changes nothing),
  and scaling by the nonnegative real constant 2⁻¹³ = 1/8192 passes through a sum of products; nothing else
  is moved across a sum, so no finiteness of the inputs is used.

  Frames: each of the two kernel programs (the word-level one and its idealization are the same text) runs to
  the end with its three kernels chained through the host reduction, leaving the arguments as launched; the
  reference's frame is its run with the result dropped. The idealization rewrote nothing, so `preserves` is trivial.
-/
import proofs.«135818_j22402549416655_2_alg».proof.Defs
import proofs.«135818_j22402549416655_2_alg».proof.Proof.Gen.Kernel
import proofs.«135818_j22402549416655_2_alg».proof.Proof.Gen.KernelIdeal
import proofs.«135818_j22402549416655_2_alg».proof.Proof.Gen.ReferenceIdeal
import proofs.«135818_j22402549416655_2_alg».proof.Proof.Gen.ReferenceIdeal.Run
import proofs.«135818_j22402549416655_2_alg».proof.Proof.Gen.Pre_finite_inputs
import proofs.«135818_j22402549416655_2_alg».proof.Proof.KArgs
import proofs.«135818_j22402549416655_2_alg».proof.Proof.Values
import proofs.«135818_j22402549416655_2_alg».proof.Proof.KernelIsG
import proofs.«135818_j22402549416655_2_alg».proof.Proof.RefClaims

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- Both idealized programs end at the same closed form of the arguments: the kernel's run read block by block
    and the value equation on one side, the reference's run on the other, the memories agreeing on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Math.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.KernelIdeal.KValue.result_eq_G _ _ _), (h c).2⟩)
      (Cert.KernelIdeal.Hand.run_value (F := Ideal) m ρ)
  · exact Cert.ReferenceIdeal.RefValue.run_G_of_agree m' ρ' _ _ _ hagree

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_holds, trivial, algebraic⟩

end Cert.Proof

end
